-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S32x1024x512 : Shape := ⟨3, ![32, 1024, 512]⟩
abbrev S1024x512 : Shape := ⟨2, ![1024, 512]⟩
abbrev S512 : Shape := ⟨1, ![512]⟩
abbrev S512x1024 : Shape := ⟨2, ![512, 1024]⟩
abbrev S1024 : Shape := ⟨1, ![1024]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel
  bcast_S_S32x1024x512 : S_.BroadcastsInDim S32x1024x512 (![] : Fin 0 → Fin S32x1024x512.rank)
  reducesTo_S32x1024x512_S_d0_1_2 : S32x1024x512.ReducesTo [0, 1, 2] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x512 .f32) (main_arg5 : FVec F S512 .f32) (main_arg6 : FVec F S512x1024 .f32) (main_arg7 : FVec F S1024 .f32) (main_v13 : IVec S_ 1) (main_v16 : IVec S32x1024x512 1) : IVec S_ 1 :=
  let main_c_5 : IVec S_ 1 := constantI S_ 1 1#1
  let main_v17 : IVec S_ 1 := (fun x v => Host.reduce IntOp.andi x v reducesTo_S32x1024x512_S_d0_1_2 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1024 .f32 := Host.absf main_arg6
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg7 main_v33

def fn {F : FTy → Type} [FloatOps F] (main_arg0 : FVec F S32x1024x1024 .f32) (main_arg1 : FVec F S32x1024x512 .f32) (main_arg2 : FVec F S32x1024x512 .f32) (main_arg3 : FVec F S32x1024x512 .f32) (main_arg4 : FVec F S1024x512 .f32) (main_arg5 : FVec F S512 .f32) (main_arg6 : FVec F S512x1024 .f32) (main_arg7 : FVec F S1024 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S32x1024x512 .f32 := Host.absf main_arg1
  let main_cst_0 : FVec F S_ .f32 := constant S_ .f32 0x7F800000#32
  let main_v5 : FVec F S32x1024x512 .f32 := broadcastInDim S32x1024x512 ![] bcast_S_S32x1024x512 main_cst_0
  let main_v6 : IVec S32x1024x512 1 := cmpf .olt main_v4 main_v5
  let main_c_1 : IVec S_ 1 := constantI S_ 1 1#1
  let main_v7 : IVec S_ 1 := (fun x v => Host.reduce IntOp.andi x v reducesTo_S32x1024x512_S_d0_1_2 h_S_) main_v6 main_c_1
  let main_v8 : IVec S_ 1 := andi main_v3 main_v7
  let main_v9 : FVec F S32x1024x512 .f32 := Host.absf main_arg2
  let main_cst_2 : FVec F S_ .f32 := constant S_ .f32 0x7F800000#32
  let main_v10 : FVec F S32x1024x512 .f32 := broadcastInDim S32x1024x512 ![] bcast_S_S32x1024x512 main_cst_2
  let main_v11 : IVec S32x1024x512 1 := cmpf .olt main_v9 main_v10
  let main_c_3 : IVec S_ 1 := constantI S_ 1 1#1
  let main_v12 : IVec S_ 1 := (fun x v => Host.reduce IntOp.andi x v reducesTo_S32x1024x512_S_d0_1_2 h_S_) main_v11 main_c_3
  let main_v13 : IVec S_ 1 := andi main_v8 main_v12
  let main_v14 : FVec F S32x1024x512 .f32 := Host.absf main_arg3
  let main_cst_4 : FVec F S_ .f32 := constant S_ .f32 0x7F800000#32
  let main_v15 : FVec F S32x1024x512 .f32 := broadcastInDim S32x1024x512 ![] bcast_S_S32x1024x512 main_cst_4
  let main_v16 : IVec S32x1024x512 1 := cmpf .olt main_v14 main_v15
  fn_part1 (F := F) main_arg4 main_arg5 main_arg6 main_arg7 main_v13 main_v16
-- ==== Kernel.lean ====
abbrev S32x1024x1024 : Shape := ⟨3, ![32, 1024, 1024]⟩
abbrev S32x1024x512 : Shape := ⟨3, ![32, 1024, 512]⟩
abbrev S1024x512 : Shape := ⟨2, ![1024, 512]⟩
abbrev S512 : Shape := ⟨1, ![512]⟩
abbrev S512x1024 : Shape := ⟨2, ![512, 1024]⟩
abbrev S1024 : Shape := ⟨1, ![1024]⟩
abbrev S1x256x1024 : Shape := ⟨3, ![1, 256, 1024]⟩
abbrev S1x256x512 : Shape := ⟨3, ![1, 256, 512]⟩
abbrev S1x1024x512 : Shape := ⟨3, ![1, 1024, 512]⟩
abbrev S256x1024 : Shape := ⟨2, ![256, 1024]⟩
abbrev S256x512 : Shape := ⟨2, ![256, 512]⟩
abbrev S1x512 : Shape := ⟨2, ![1, 512]⟩
abbrev S256 : Shape := ⟨1, ![256]⟩
abbrev S256x1 : Shape := ⟨2, ![256, 1]⟩
abbrev S1x1024 : Shape := ⟨2, ![1, 1024]⟩

abbrev nBuf : Space → Nat
  | .hbm => 9
  | .vmem => 18
  | .smem => 0
  | _ => 0

abbrev bufTy : (tb : Table) → Fin (tcTables nBuf tb) → BufTy
  | .hbm, ⟨0, _⟩ => ⟨S32x1024x1024, .f32⟩
  | .hbm, ⟨1, _⟩ => ⟨S32x1024x512, .f32⟩
  | .hbm, ⟨2, _⟩ => ⟨S32x1024x512, .f32⟩
  | .hbm, ⟨3, _⟩ => ⟨S32x1024x512, .f32⟩
  | .hbm, ⟨4, _⟩ => ⟨S1024x512, .f32⟩
  | .hbm, ⟨5, _⟩ => ⟨S512, .f32⟩
  | .hbm, ⟨6, _⟩ => ⟨S512x1024, .f32⟩
  | .hbm, ⟨7, _⟩ => ⟨S1024, .f32⟩
  | .hbm, ⟨8, _⟩ => ⟨S32x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x512, .f32⟩
  | .local _ .vmem, ⟨3, _⟩ => ⟨S1x256x512, .f32⟩
  | .local _ .vmem, ⟨4, _⟩ => ⟨S1x1024x512, .f32⟩
  | .local _ .vmem, ⟨5, _⟩ => ⟨S1x1024x512, .f32⟩
  | .local _ .vmem, ⟨6, _⟩ => ⟨S1x1024x512, .f32⟩
  | .local _ .vmem, ⟨7, _⟩ => ⟨S1x1024x512, .f32⟩
  | .local _ .vmem, ⟨8, _⟩ => ⟨S1024x512, .f32⟩
  | .local _ .vmem, ⟨9, _⟩ => ⟨S512, .f32⟩
  | .local _ .vmem, ⟨10, _⟩ => ⟨S512x1024, .f32⟩
  | .local _ .vmem, ⟨11, _⟩ => ⟨S1024, .f32⟩
  | .local _ .vmem, ⟨12, _⟩ => ⟨S1x256x1024, .f32⟩
  | .local _ .vmem, ⟨13, _⟩ => ⟨S1x256x1024, .f32⟩
  | .local _ .vmem, ⟨14, _⟩ => ⟨S512x1024, .bf16⟩
  | .local _ .vmem, ⟨15, _⟩ => ⟨S1024x512, .bf16⟩
  | .local _ .vmem, ⟨16, _⟩ => ⟨S1024x512, .bf16⟩
  | .local _ .vmem, ⟨17, _⟩ => ⟨S512x1024, .bf16⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  transposes_S1024x512_p1_0_S512x1024 : S1024x512.Transposes [1, 0] S512x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  packedbf16_S512x1024_S512x1024_0_0 : (Rect.unit (s := S512x1024) ![0, 0] S512x1024.size inb_S512x1024_S512x1024_0_0).PackedRows (EltTy.packing .bf16)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  packedbf16_S1024x512_S1024x512_0_0 : (Rect.unit (s := S1024x512) ![0, 0] S1024x512.size inb_S1024x512_S1024x512_0_0).PackedRows (EltTy.packing .bf16)
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S512_S512_0 : ∀ a, (![0] : Fin 1 → Nat) a + S512.size a ≤ S512.size a
  h_S512 : 0 < S512.numel
  shapeCasts_S512_S1x512 : S512.ShapeCasts S1x512
  broadcasts_S1x512_S256x512 : S1x512.Broadcasts S256x512
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  reduces_S256x1024_S256 : S256x1024.Reduces [1] S256
  shapeCasts_S256_S256x1 : S256.ShapeCasts S256x1
  broadcasts_S256x1_S256x1024 : S256x1.Broadcasts S256x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  shapeCasts_S256x1024_S1x256x1024 : S256x1024.ShapeCasts S1x256x1024
  dot_S256x1024_S1024x512_S256x512_1_0_0_1_n_n_wf : DotDims.WF S256x1024 S1024x512 S256x512 [1] [0] [0] [1] [] []
  dot_S256x512_S512x1024_S256x1024_1_0_0_1_n_n_wf : DotDims.WF S256x512 S512x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S32x1024x1024.size a
  hwx0_0 : ∀ i : grid0.Coords, EltTy.bits .f32 = 32 ∨ (Rect.block (s := S32x1024x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x512.size a ≤ S32x1024x512.size a
  hwx0_1 : ∀ i : grid0.Coords, EltTy.bits .f32 = 32 ∨ (Rect.block (s := S32x1024x512) S1x256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S32x1024x512.size a
  hwx0_2 : ∀ i : grid0.Coords, EltTy.bits .f32 = 32 ∨ (Rect.block (s := S32x1024x512) S1x1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x512.size a ≤ S32x1024x512.size a
  hwx0_3 : ∀ i : grid0.Coords, EltTy.bits .f32 = 32 ∨ (Rect.block (s := S32x1024x512) S1x1024x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S1024x512.size a
  hwx0_4 : ∀ i : grid0.Coords, EltTy.bits .f32 = 32 ∨ (Rect.block (s := S1024x512) S1024x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S512x1024.size a
  hwx0_6 : ∀ i : grid0.Coords, EltTy.bits .f32 = 32 ∨ (Rect.block (s := S512x1024) S512x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S1024.size a
  hwx0_7 : ∀ i : grid0.Coords, EltTy.bits .f32 = 32 ∨ (Rect.block (s := S1024) S1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x1024.size a ≤ S32x1024x1024.size a
  hwx0_8 : ∀ i : grid0.Coords, EltTy.bits .f32 = 32 ∨ (Rect.block (s := S32x1024x1024) S1x256x1024.size (cc0_transform_8 i) (hinb0_8 i)).WholeWords (EltTy.packing .f32)

variable [Facts₀]

def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1x256x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32x1024x1024 : Shape := ⟨3, ![32, 1024, 1024]⟩
abbrev S32x1024x512 : Shape := ⟨3, ![32, 1024, 512]⟩
abbrev S1024x512 : Shape := ⟨2, ![1024, 512]⟩
abbrev S512 : Shape := ⟨1, ![512]⟩
abbrev S512x1024 : Shape := ⟨2, ![512, 1024]⟩
abbrev S1024 : Shape := ⟨1, ![1024]⟩
abbrev S1x1x512 : Shape := ⟨3, ![1, 1, 512]⟩
abbrev S_ : Shape := ⟨0, ![]⟩
abbrev S32x1024 : Shape := ⟨2, ![32, 1024]⟩
abbrev S32x1024x1 : Shape := ⟨3, ![32, 1024, 1]⟩
abbrev S1x1x1024 : Shape := ⟨3, ![1, 1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S32x1024x512, .f32⟩
  | .hbm, ⟨2, _⟩ => ⟨S32x1024x512, .f32⟩
  | .hbm, ⟨3, _⟩ => ⟨S32x1024x512, .f32⟩
  | .hbm, ⟨4, _⟩ => ⟨S1024x512, .f32⟩
  | .hbm, ⟨5, _⟩ => ⟨S512, .f32⟩
  | .hbm, ⟨6, _⟩ => ⟨S512x1024, .f32⟩
  | .hbm, ⟨7, _⟩ => ⟨S1024, .f32⟩
  | .hbm, ⟨8, _⟩ => ⟨S32x1024x512, .f32⟩
  | .hbm, ⟨9, _⟩ => ⟨S1x1x512, .f32⟩
  | .hbm, ⟨10, _⟩ => ⟨S32x1024x512, .f32⟩
  | .hbm, ⟨11, _⟩ => ⟨S32x1024x512, .f32⟩
  | .hbm, ⟨12, _⟩ => ⟨S32x1024x512, .f32⟩
  | .hbm, ⟨13, _⟩ => ⟨S_, .f32⟩
  | .hbm, ⟨14, _⟩ => ⟨S32x1024x512, .f32⟩
  | .hbm, ⟨15, _⟩ => ⟨S32x1024x512, .f32⟩
  | .hbm, ⟨16, _⟩ => ⟨S32x1024x1024, .f32⟩
  | .hbm, ⟨17, _⟩ => ⟨S_, .f32⟩
  | .hbm, ⟨18, _⟩ => ⟨S32x1024, .f32⟩
  | .hbm, ⟨19, _⟩ => ⟨S_, .f32⟩
  | .hbm, ⟨20, _⟩ => ⟨S32x1024, .f32⟩
  | .hbm, ⟨21, _⟩ => ⟨S32x1024, .f32⟩
  | .hbm, ⟨22, _⟩ => ⟨S32x1024x1, .f32⟩
  | .hbm, ⟨23, _⟩ => ⟨S32x1024x1024, .f32⟩
  | .hbm, ⟨24, _⟩ => ⟨S32x1024x1024, .f32⟩
  | .hbm, ⟨25, _⟩ => ⟨S32x1024x1024, .f32⟩
  | .hbm, ⟨26, _⟩ => ⟨S_, .f32⟩
  | .hbm, ⟨27, _⟩ => ⟨S32x1024, .f32⟩
  | .hbm, ⟨28, _⟩ => ⟨S32x1024x1, .f32⟩
  | .hbm, ⟨29, _⟩ => ⟨S32x1024x1024, .f32⟩
  | .hbm, ⟨30, _⟩ => ⟨S32x1024x1024, .f32⟩
  | .hbm, ⟨31, _⟩ => ⟨S32x1024x512, .f32⟩
  | .hbm, ⟨32, _⟩ => ⟨S_, .f32⟩
  | .hbm, ⟨33, _⟩ => ⟨S_, .f32⟩
  | .hbm, ⟨34, _⟩ => ⟨S32x1024x512, .f32⟩
  | .hbm, ⟨35, _⟩ => ⟨S32x1024x512, .f32⟩
  | .hbm, ⟨36, _⟩ => ⟨S32x1024x512, .f32⟩
  | .hbm, ⟨37, _⟩ => ⟨S_, .f32⟩
  | .hbm, ⟨38, _⟩ => ⟨S32x1024x512, .f32⟩
  | .hbm, ⟨39, _⟩ => ⟨S32x1024x512, .f32⟩
  | .hbm, ⟨40, _⟩ => ⟨S32x1024x1024, .f32⟩
  | .hbm, ⟨41, _⟩ => ⟨S1x1x1024, .f32⟩
  | .hbm, ⟨42, _⟩ => ⟨S32x1024x1024, .f32⟩
  | .hbm, ⟨43, _⟩ => ⟨S32x1024x1024, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S32x1024x512_0_1_2 : S1x1x512.BroadcastsInDim S32x1024x512 (![0, 1, 2] : Fin 3 → Fin S32x1024x512.rank)
  bcast_S_S32x1024x512 : S_.BroadcastsInDim S32x1024x512 (![] : Fin 0 → Fin S32x1024x512.rank)
  reducesTo_S32x1024x1024_S32x1024_d2 : S32x1024x1024.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  bcast_S1024_S1x1x1024_2 : S1024.BroadcastsInDim S1x1x1024 (![2] : Fin 1 → Fin S1x1x1024.rank)
  bcast_S1x1x1024_S32x1024x1024_0_1_2 : S1x1x1024.BroadcastsInDim S32x1024x1024 (![0, 1, 2] : Fin 3 → Fin S32x1024x1024.rank)
  dot_S32x1024x1024_S1024x512_S32x1024x512_2_0_01_1_n_n_wf : DotDims.WF S32x1024x1024 S1024x512 S32x1024x512 [2] [0] [0, 1] [1] [] []
  dot_S32x1024x512_S32x1024x512_S32x1024x1024_2_2_1_1_0_0_wf : DotDims.WF S32x1024x512 S32x1024x512 S32x1024x1024 [2] [2] [1] [1] [0] [0]
  dot_S32x1024x1024_S32x1024x512_S32x1024x512_2_1_1_2_0_0_wf : DotDims.WF S32x1024x1024 S32x1024x512 S32x1024x512 [2] [1] [1] [2] [0] [0]
  dot_S32x1024x512_S512x1024_S32x1024x1024_2_0_01_1_n_n_wf : DotDims.WF S32x1024x512 S512x1024 S32x1024x1024 [2] [0] [0, 1] [1] [] []

variable [Facts₀]

def dot_S32x1024x1024_S1024x512_S32x1024x512_2_0_01_1_n_n : DotDims S32x1024x1024 S1024x512 S32x1024x512 where
  lhsContracting := [2]
  rhsContracting := [0]
  lhsNonContracting := [0, 1]
  rhsNonContracting := [1]
  lhsBatch := []
  rhsBatch := []
  wf := dot_S32x1024x1024_S1024x512_S32x1024x512_2_0_01_1_n_n_wf
def dot_S32x1024x512_S32x1024x512_S32x1024x1024_2_2_1_1_0_0 : DotDims S32x1024x512 S32x1024x512 S32x1024x1024 where
  lhsContracting := [2]
  rhsContracting := [2]
  lhsNonContracting := [1]
  rhsNonContracting := [1]
  lhsBatch := [0]
  rhsBatch := [0]
  wf := dot_S32x1024x512_S32x1024x512_S32x1024x1024_2_2_1_1_0_0_wf
def dot_S32x1024x1024_S32x1024x512_S32x1024x512_2_1_1_2_0_0 : DotDims S32x1024x1024 S32x1024x512 S32x1024x512 where
  lhsContracting := [2]
  rhsContracting := [1]
  lhsNonContracting := [1]
  rhsNonContracting := [2]
  lhsBatch := [0]
  rhsBatch := [0]
  wf := dot_S32x1024x1024_S32x1024x512_S32x1024x512_2_1_1_2_0_0_wf
def dot_S32x1024x512_S512x1024_S32x1024x1024_2_0_01_1_n_n : DotDims S32x1024x512 S512x1024 S32x1024x1024 where
  lhsContracting := [2]
  rhsContracting := [0]
  lhsNonContracting := [0, 1]
  rhsNonContracting := [1]
  lhsBatch := []
  rhsBatch := []
  wf := dot_S32x1024x512_S512x1024_S32x1024x1024_2_0_01_1_n_n_wf

class Facts : Prop extends Facts₀ where

variable [Facts]
-- ==== Proof.Pieces.lean ====
/-
  What one run of the body leaves behind, as values of what it loaded.

  The body has two cases. At the first query tile of a batch it fills four scratch buffers from the blocks it was
  handed — the encoder output transposed, the encoder input, and the two weight matrices, each stored whole — and
  then computes the output tile reading those buffers back. At the other tiles it stores nothing into the scratch
  and computes the same output tile from what the scratch already held. Each store covers its buffer, and each load
  reads a whole buffer at zero offsets, so what a buffer holds afterwards is the stored term itself, and a load of a
  buffer just stored reads that term back.
-/
import proofs.«101158_j14431090114891_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

namespace Cert.KernelIdeal.Pieces

open Cert.KernelIdeal Cert.KernelIdeal.Gen

variable {F : FTy → Type} [FloatOps F]

/-- Zero offsets, at ranks one, two and three. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- At a batch's first tile, scratch 0 ends holding the stored term: `k0_pay2` of the block loaded for it. -/
theorem scratch0_first (c : Dev nD) (i : grid0.Coords) (arg2 : Memref sig .tc .vmem S1x256x1024 .f32) (harg2 : arg2.IsWhole) (arg3 : Memref sig .tc .vmem S1x256x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1024x512 .f32) (harg6 : arg6.IsWhole) (arg7 : Memref sig .tc .vmem S512 .f32) (harg7 : arg7.IsWhole) (arg8 : Memref sig .tc .vmem S512x1024 .f32) (harg8 : arg8.IsWhole) (arg9 : Memref sig .tc .vmem S1024 .f32) (harg9 : arg9.IsWhole) (arg10 : Memref sig .tc .vmem S1x256x1024 .f32) (harg10 : arg10.IsWhole) (arg11 : Memref sig .tc .vmem S512x1024 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S512x1024 .bf16) (harg14 : arg14.IsWhole) (hc0 : cond0_0 i) (x0 : Vec F S1x256x1024 .f32) (x1 : Vec F S1x256x512 .f32) (x2 : Vec F S1x1024x512 .f32) (x3 : Vec F S1x1024x512 .f32) (x4 : Vec F S1024x512 .f32) (x5 : Vec F S512 .f32) (x6 : Vec F S512x1024 .f32) (x7 : Vec F S1024 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = k0_pay2 x2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  rw [View.canon_unit_zero hz2]
  simp only [View.readAt_eq_ld, harg4.read_unread, View.ld_unit_zero (S := S1x1024x512) hz3]

/-- At a batch's first tile, scratch 1 ends holding the stored term: `k0_pay3` of the block loaded for it. -/
theorem scratch1_first (c : Dev nD) (i : grid0.Coords) (arg2 : Memref sig .tc .vmem S1x256x1024 .f32) (harg2 : arg2.IsWhole) (arg3 : Memref sig .tc .vmem S1x256x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1024x512 .f32) (harg6 : arg6.IsWhole) (arg7 : Memref sig .tc .vmem S512 .f32) (harg7 : arg7.IsWhole) (arg8 : Memref sig .tc .vmem S512x1024 .f32) (harg8 : arg8.IsWhole) (arg9 : Memref sig .tc .vmem S1024 .f32) (harg9 : arg9.IsWhole) (arg10 : Memref sig .tc .vmem S1x256x1024 .f32) (harg10 : arg10.IsWhole) (arg11 : Memref sig .tc .vmem S512x1024 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S512x1024 .bf16) (harg14 : arg14.IsWhole) (hc0 : cond0_0 i) (x0 : Vec F S1x256x1024 .f32) (x1 : Vec F S1x256x512 .f32) (x2 : Vec F S1x1024x512 .f32) (x3 : Vec F S1x1024x512 .f32) (x4 : Vec F S1024x512 .f32) (x5 : Vec F S512 .f32) (x6 : Vec F S512x1024 .f32) (x7 : Vec F S1024 .f32) :
    sout0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = k0_pay3 x3 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  rw [View.canon_unit_zero hz2]
  simp only [View.readAt_eq_ld, harg5.read_unread, View.ld_unit_zero (S := S1x1024x512) hz3]

/-- At a batch's first tile, scratch 2 ends holding the stored term: `k0_pay4` of the block loaded for it. -/
theorem scratch2_first (c : Dev nD) (i : grid0.Coords) (arg2 : Memref sig .tc .vmem S1x256x1024 .f32) (harg2 : arg2.IsWhole) (arg3 : Memref sig .tc .vmem S1x256x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1024x512 .f32) (harg6 : arg6.IsWhole) (arg7 : Memref sig .tc .vmem S512 .f32) (harg7 : arg7.IsWhole) (arg8 : Memref sig .tc .vmem S512x1024 .f32) (harg8 : arg8.IsWhole) (arg9 : Memref sig .tc .vmem S1024 .f32) (harg9 : arg9.IsWhole) (arg10 : Memref sig .tc .vmem S1x256x1024 .f32) (harg10 : arg10.IsWhole) (arg11 : Memref sig .tc .vmem S512x1024 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S512x1024 .bf16) (harg14 : arg14.IsWhole) (hc0 : cond0_0 i) (x0 : Vec F S1x256x1024 .f32) (x1 : Vec F S1x256x512 .f32) (x2 : Vec F S1x1024x512 .f32) (x3 : Vec F S1x1024x512 .f32) (x4 : Vec F S1024x512 .f32) (x5 : Vec F S512 .f32) (x6 : Vec F S512x1024 .f32) (x7 : Vec F S1024 .f32) :
    sout0_A_2 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = k0_pay4 x4 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  rw [View.canon_unit_zero hz2]
  simp only [View.readAt_eq_ld, harg6.read_unread, View.ld_unit_zero (S := S1024x512) hz2]

/-- At a batch's first tile, scratch 3 ends holding the stored term: `k0_pay5` of the block loaded for it. -/
theorem scratch3_first (c : Dev nD) (i : grid0.Coords) (arg2 : Memref sig .tc .vmem S1x256x1024 .f32) (harg2 : arg2.IsWhole) (arg3 : Memref sig .tc .vmem S1x256x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1024x512 .f32) (harg6 : arg6.IsWhole) (arg7 : Memref sig .tc .vmem S512 .f32) (harg7 : arg7.IsWhole) (arg8 : Memref sig .tc .vmem S512x1024 .f32) (harg8 : arg8.IsWhole) (arg9 : Memref sig .tc .vmem S1024 .f32) (harg9 : arg9.IsWhole) (arg10 : Memref sig .tc .vmem S1x256x1024 .f32) (harg10 : arg10.IsWhole) (arg11 : Memref sig .tc .vmem S512x1024 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S512x1024 .bf16) (harg14 : arg14.IsWhole) (hc0 : cond0_0 i) (x0 : Vec F S1x256x1024 .f32) (x1 : Vec F S1x256x512 .f32) (x2 : Vec F S1x1024x512 .f32) (x3 : Vec F S1x1024x512 .f32) (x4 : Vec F S1024x512 .f32) (x5 : Vec F S512 .f32) (x6 : Vec F S512x1024 .f32) (x7 : Vec F S1024 .f32) :
    sout0_A_3 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = k0_pay5 x6 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  rw [View.canon_unit_zero hz2]
  simp only [View.readAt_eq_ld, harg8.read_unread, View.ld_unit_zero (S := S512x1024) hz2]

/-- At a batch's first tile the output tile is the output projection of the attention payload over the four terms
    just stored: each scratch load reads back the covering store before it. -/
theorem out_first (c : Dev nD) (i : grid0.Coords) (arg2 : Memref sig .tc .vmem S1x256x1024 .f32) (harg2 : arg2.IsWhole) (arg3 : Memref sig .tc .vmem S1x256x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1024x512 .f32) (harg6 : arg6.IsWhole) (arg7 : Memref sig .tc .vmem S512 .f32) (harg7 : arg7.IsWhole) (arg8 : Memref sig .tc .vmem S512x1024 .f32) (harg8 : arg8.IsWhole) (arg9 : Memref sig .tc .vmem S1024 .f32) (harg9 : arg9.IsWhole) (arg10 : Memref sig .tc .vmem S1x256x1024 .f32) (harg10 : arg10.IsWhole) (arg11 : Memref sig .tc .vmem S512x1024 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S512x1024 .bf16) (harg14 : arg14.IsWhole) (hc0 : cond0_0 i) (x0 : Vec F S1x256x1024 .f32) (x1 : Vec F S1x256x512 .f32) (x2 : Vec F S1x1024x512 .f32) (x3 : Vec F S1x1024x512 .f32) (x4 : Vec F S1024x512 .f32) (x5 : Vec F S512 .f32) (x6 : Vec F S512x1024 .f32) (x7 : Vec F S1024 .f32) :
    out0_A_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7
      = k0_pay1 (k0_pay6 x0 x5 (k0_pay4 x4) x1 (k0_pay2 x2) (k0_pay3 x3)) x7 (k0_pay5 x6) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  rw [View.canon_unit_zero hz3]
  simp only [View.readCov_unit_zero (S := S1024x512) _ hz2, View.readCov_unit_zero (S := S512x1024) _ hz2]
  simp only [View.readAt_eq_ld, harg2.read_unread, harg3.read_unread, harg4.read_unread, harg5.read_unread, harg6.read_unread, harg7.read_unread, harg8.read_unread, harg9.read_unread, harg11.read_unread, harg12.read_unread, harg13.read_unread, harg14.read_unread, View.ld_unit_zero (S := S1x256x1024) hz3, View.ld_unit_zero (S := S1x256x512) hz3, View.ld_unit_zero (S := S1x1024x512) hz3, View.ld_unit_zero (S := S1024x512) hz2, View.ld_unit_zero (S := S512x1024) hz2, View.ld_unit_zero (S := S512) hz1, View.ld_unit_zero (S := S1024) hz1]

/-- At any other tile the output tile is the same payload over what the scratch held on entry. -/
theorem out_later (c : Dev nD) (i : grid0.Coords) (arg2 : Memref sig .tc .vmem S1x256x1024 .f32) (harg2 : arg2.IsWhole) (arg3 : Memref sig .tc .vmem S1x256x512 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1024x512 .f32) (harg6 : arg6.IsWhole) (arg7 : Memref sig .tc .vmem S512 .f32) (harg7 : arg7.IsWhole) (arg8 : Memref sig .tc .vmem S512x1024 .f32) (harg8 : arg8.IsWhole) (arg9 : Memref sig .tc .vmem S1024 .f32) (harg9 : arg9.IsWhole) (arg10 : Memref sig .tc .vmem S1x256x1024 .f32) (harg10 : arg10.IsWhole) (arg11 : Memref sig .tc .vmem S512x1024 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S512x1024 .bf16) (harg14 : arg14.IsWhole) (hc0 : ¬cond0_0 i) (x0 : Vec F S1x256x1024 .f32) (x1 : Vec F S1x256x512 .f32) (x2 : Vec F S1x1024x512 .f32) (x3 : Vec F S1x1024x512 .f32) (x4 : Vec F S1024x512 .f32) (x5 : Vec F S512 .f32) (x6 : Vec F S512x1024 .f32) (x7 : Vec F S1024 .f32) (xs0 : Vec F S512x1024 .bf16) (xs1 : Vec F S1024x512 .bf16) (xs2 : Vec F S1024x512 .bf16) (xs3 : Vec F S512x1024 .bf16) :
    out0_B_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs1 xs2 xs3
      = k0_pay1 (k0_pay6 x0 x5 xs2 x1 xs0 xs1) x7 xs3 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs1 xs2 xs3)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg11.read_unread, harg12.read_unread, harg13.read_unread, harg14.read_unread, View.ld_unit_zero (S := S1x256x1024) hz3, View.ld_unit_zero (S := S1x256x512) hz3, View.ld_unit_zero (S := S1x1024x512) hz3, View.ld_unit_zero (S := S1024x512) hz2, View.ld_unit_zero (S := S512x1024) hz2, View.ld_unit_zero (S := S512) hz1, View.ld_unit_zero (S := S1024) hz1]

end Cert.KernelIdeal.Pieces

end
-- ==== Proof.Tiles.lean ====
/-
  The kernel's run over its grid of 32 batches by 4 query tiles, point by point.

  Point t handles batch t / 4 and query rows 256 · (t % 4) … 256 · (t % 4) + 255. Its blocks of the decoder output
  and of the target embedding are those rows of that batch; its blocks of the encoder output and encoder input are
  the whole batch; the weights and biases are handed over whole at every point. The scratch buffers are filled at
  the first tile of a batch and kept through the other three. Since a later tile of the same batch is handed the
  same encoder blocks and the same weights, the scratch after ANY point holds the fill of that point's own blocks:
  by induction on the point. So every point, first tile or not, writes back one and the same payload of its own
  blocks.
-/
import proofs.«101158_j14431090114891_2_alg».proof.Proof.Pieces
import proofs.«101158_j14431090114891_2_alg».proof.Proof.Gen.KernelIdeal.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tiles

open Cert.KernelIdeal Cert.KernelIdeal.Gen

variable {F : FTy → Type} [FloatOps F]
variable (m : (ℓ : Loc nD τ sig) → Buf (Elt F) ℓ)

/-- The grid has 128 points. -/
theorem hN : cfg0.N = 128 := N_0

/-- The printed index maps, decided once over the grid: batch and tile for the two row-blocked inputs and the
    output, batch alone for the two encoder inputs, nothing for the weights and biases. -/
theorem idx_facts : ∀ t : Fin cfg0.N,
    (win0_0.index t (0 : Fin 3) = t.val / 4 ∧ win0_0.index t (1 : Fin 3) = t.val % 4 ∧ win0_0.index t (2 : Fin 3) = 0)
    ∧ (win0_1.index t (0 : Fin 3) = t.val / 4 ∧ win0_1.index t (1 : Fin 3) = t.val % 4 ∧ win0_1.index t (2 : Fin 3) = 0)
    ∧ (win0_2.index t (0 : Fin 3) = t.val / 4 ∧ win0_2.index t (1 : Fin 3) = 0 ∧ win0_2.index t (2 : Fin 3) = 0)
    ∧ (win0_3.index t (0 : Fin 3) = t.val / 4 ∧ win0_3.index t (1 : Fin 3) = 0 ∧ win0_3.index t (2 : Fin 3) = 0)
    ∧ (win0_4.index t (0 : Fin 2) = 0 ∧ win0_4.index t (1 : Fin 2) = 0)
    ∧ win0_5.index t (0 : Fin 1) = 0
    ∧ (win0_6.index t (0 : Fin 2) = 0 ∧ win0_6.index t (1 : Fin 2) = 0)
    ∧ win0_7.index t (0 : Fin 1) = 0
    ∧ (win0_8.index t (0 : Fin 3) = t.val / 4 ∧ win0_8.index t (1 : Fin 3) = t.val % 4 ∧ win0_8.index t (2 : Fin 3) = 0) :=
  (by decide +kernel : ∀ t : Fin grid0.N, _)

/-- The batch of a point, and the array row of a tile row. -/
def batch (t : Fin cfg0.N) : Fin 32 := ⟨t.val / 4, by have := t.isLt; have := hN; omega⟩
def arow (t : Fin cfg0.N) (p : Fin 256) : Fin 1024 := ⟨256 * (t.val % 4) + p.val, by have := p.isLt; omega⟩

/-! ## Each input block, read at coordinates, is the argument array at the batch and row of the point -/

theorem blk0_at (c : Dev nD) (t : Fin cfg0.N) (u : Fin 1) (p : Fin 256) (k : Fin 1024) :
    (iblk m c 0 t : Vec F S1x256x1024 .f32) (ix3 u p k) = V m c main_arg0 (ix3 (batch t) (arow t p) k) := by
  obtain ⟨⟨e0, e1, e2⟩, -⟩ := idx_facts t
  unfold iblk
  rw [View.read_apply]
  show V m c main_arg0 (((cfg0.win 0).blk t).view.emb (ix3 u p k)) = _
  refine congrArg (V m c main_arg0) (funext fun a => Fin.ext ?_)
  have hu := u.isLt
  match a with
  | ⟨0, _⟩ => show win0_0.index t (0 : Fin 3) * 1 + 1 * u.val = t.val / 4; omega
  | ⟨1, _⟩ => show win0_0.index t (1 : Fin 3) * 256 + 1 * p.val = 256 * (t.val % 4) + p.val; omega
  | ⟨2, _⟩ => show win0_0.index t (2 : Fin 3) * 1024 + 1 * k.val = k.val; omega

theorem blk1_at (c : Dev nD) (t : Fin cfg0.N) (u : Fin 1) (p : Fin 256) (e : Fin 512) :
    (iblk m c 1 t : Vec F S1x256x512 .f32) (ix3 u p e) = V m c main_arg1 (ix3 (batch t) (arow t p) e) := by
  obtain ⟨-, ⟨e0, e1, e2⟩, -⟩ := idx_facts t
  unfold iblk
  rw [View.read_apply]
  show V m c main_arg1 (((cfg0.win 1).blk t).view.emb (ix3 u p e)) = _
  refine congrArg (V m c main_arg1) (funext fun a => Fin.ext ?_)
  have hu := u.isLt
  match a with
  | ⟨0, _⟩ => show win0_1.index t (0 : Fin 3) * 1 + 1 * u.val = t.val / 4; omega
  | ⟨1, _⟩ => show win0_1.index t (1 : Fin 3) * 256 + 1 * p.val = 256 * (t.val % 4) + p.val; omega
  | ⟨2, _⟩ => show win0_1.index t (2 : Fin 3) * 512 + 1 * e.val = e.val; omega

theorem blk2_at (c : Dev nD) (t : Fin cfg0.N) (u : Fin 1) (r : Fin 1024) (e : Fin 512) :
    (iblk m c 2 t : Vec F S1x1024x512 .f32) (ix3 u r e) = V m c main_arg2 (ix3 (batch t) r e) := by
  obtain ⟨-, -, ⟨e0, e1, e2⟩, -⟩ := idx_facts t
  unfold iblk
  rw [View.read_apply]
  show V m c main_arg2 (((cfg0.win 2).blk t).view.emb (ix3 u r e)) = _
  refine congrArg (V m c main_arg2) (funext fun a => Fin.ext ?_)
  have hu := u.isLt
  match a with
  | ⟨0, _⟩ => show win0_2.index t (0 : Fin 3) * 1 + 1 * u.val = t.val / 4; omega
  | ⟨1, _⟩ => show win0_2.index t (1 : Fin 3) * 1024 + 1 * r.val = r.val; omega
  | ⟨2, _⟩ => show win0_2.index t (2 : Fin 3) * 512 + 1 * e.val = e.val; omega

theorem blk3_at (c : Dev nD) (t : Fin cfg0.N) (u : Fin 1) (r : Fin 1024) (e : Fin 512) :
    (iblk m c 3 t : Vec F S1x1024x512 .f32) (ix3 u r e) = V m c main_arg3 (ix3 (batch t) r e) := by
  obtain ⟨-, -, -, ⟨e0, e1, e2⟩, -⟩ := idx_facts t
  unfold iblk
  rw [View.read_apply]
  show V m c main_arg3 (((cfg0.win 3).blk t).view.emb (ix3 u r e)) = _
  refine congrArg (V m c main_arg3) (funext fun a => Fin.ext ?_)
  have hu := u.isLt
  match a with
  | ⟨0, _⟩ => show win0_3.index t (0 : Fin 3) * 1 + 1 * u.val = t.val / 4; omega
  | ⟨1, _⟩ => show win0_3.index t (1 : Fin 3) * 1024 + 1 * r.val = r.val; omega
  | ⟨2, _⟩ => show win0_3.index t (2 : Fin 3) * 512 + 1 * e.val = e.val; omega

theorem blk4_at (c : Dev nD) (t : Fin cfg0.N) (k : Fin 1024) (e : Fin 512) :
    (iblk m c 4 t : Vec F S1024x512 .f32) (ix2 k e) = V m c main_arg4 (ix2 k e) := by
  obtain ⟨-, -, -, -, ⟨e0, e1⟩, -⟩ := idx_facts t
  unfold iblk
  rw [View.read_apply]
  show V m c main_arg4 (((cfg0.win 4).blk t).view.emb (ix2 k e)) = _
  refine congrArg (V m c main_arg4) (funext fun a => Fin.ext ?_)
  match a with
  | ⟨0, _⟩ => show win0_4.index t (0 : Fin 2) * 1024 + 1 * k.val = k.val; omega
  | ⟨1, _⟩ => show win0_4.index t (1 : Fin 2) * 512 + 1 * e.val = e.val; omega

theorem blk5_at (c : Dev nD) (t : Fin cfg0.N) (e : Fin 512) :
    (iblk m c 5 t : Vec F S512 .f32) (ix1 e) = V m c main_arg5 (ix1 e) := by
  obtain ⟨-, -, -, -, -, e0, -⟩ := idx_facts t
  unfold iblk
  rw [View.read_apply]
  show V m c main_arg5 (((cfg0.win 5).blk t).view.emb (ix1 e)) = _
  refine congrArg (V m c main_arg5) (funext fun a => Fin.ext ?_)
  match a with
  | ⟨0, _⟩ => show win0_5.index t (0 : Fin 1) * 512 + 1 * e.val = e.val; omega

theorem blk6_at (c : Dev nD) (t : Fin cfg0.N) (e : Fin 512) (k : Fin 1024) :
    (iblk m c 6 t : Vec F S512x1024 .f32) (ix2 e k) = V m c main_arg6 (ix2 e k) := by
  obtain ⟨-, -, -, -, -, -, ⟨e0, e1⟩, -⟩ := idx_facts t
  unfold iblk
  rw [View.read_apply]
  show V m c main_arg6 (((cfg0.win 6).blk t).view.emb (ix2 e k)) = _
  refine congrArg (V m c main_arg6) (funext fun a => Fin.ext ?_)
  match a with
  | ⟨0, _⟩ => show win0_6.index t (0 : Fin 2) * 512 + 1 * e.val = e.val; omega
  | ⟨1, _⟩ => show win0_6.index t (1 : Fin 2) * 1024 + 1 * k.val = k.val; omega

theorem blk7_at (c : Dev nD) (t : Fin cfg0.N) (k : Fin 1024) :
    (iblk m c 7 t : Vec F S1024 .f32) (ix1 k) = V m c main_arg7 (ix1 k) := by
  obtain ⟨-, -, -, -, -, -, -, e0, -⟩ := idx_facts t
  unfold iblk
  rw [View.read_apply]
  show V m c main_arg7 (((cfg0.win 7).blk t).view.emb (ix1 k)) = _
  refine congrArg (V m c main_arg7) (funext fun a => Fin.ext ?_)
  match a with
  | ⟨0, _⟩ => show win0_7.index t (0 : Fin 1) * 1024 + 1 * k.val = k.val; omega

/-! ## Points of one batch are handed the same encoder blocks and the same weights -/

theorem blk2_same (c : Dev nD) (t t' : Fin cfg0.N) (h : t.val / 4 = t'.val / 4) :
    (iblk m c 2 t : Vec F S1x1024x512 .f32) = iblk m c 2 t' :=
  funext fun (y : S1x1024x512.Idx) =>
    have hb : batch t = batch t' := Fin.ext h
    (congrArg (iblk m c 2 t : Vec F S1x1024x512 .f32) (eq_ix3 y)).trans
      ((blk2_at m c t (y 0) (y 1) (y 2)).trans
        ((congrArg (fun b => V m c main_arg2 (ix3 b (y 1) (y 2))) hb).trans
          ((blk2_at m c t' (y 0) (y 1) (y 2)).symm.trans
            (congrArg (iblk m c 2 t' : Vec F S1x1024x512 .f32) (eq_ix3 y)).symm)))

theorem blk3_same (c : Dev nD) (t t' : Fin cfg0.N) (h : t.val / 4 = t'.val / 4) :
    (iblk m c 3 t : Vec F S1x1024x512 .f32) = iblk m c 3 t' :=
  funext fun (y : S1x1024x512.Idx) =>
    have hb : batch t = batch t' := Fin.ext h
    (congrArg (iblk m c 3 t : Vec F S1x1024x512 .f32) (eq_ix3 y)).trans
      ((blk3_at m c t (y 0) (y 1) (y 2)).trans
        ((congrArg (fun b => V m c main_arg3 (ix3 b (y 1) (y 2))) hb).trans
          ((blk3_at m c t' (y 0) (y 1) (y 2)).symm.trans
            (congrArg (iblk m c 3 t' : Vec F S1x1024x512 .f32) (eq_ix3 y)).symm)))

theorem blk4_same (c : Dev nD) (t t' : Fin cfg0.N) : (iblk m c 4 t : Vec F S1024x512 .f32) = iblk m c 4 t' :=
  funext fun (y : S1024x512.Idx) =>
    (congrArg (iblk m c 4 t : Vec F S1024x512 .f32) (eq_ix2 y)).trans
      ((blk4_at m c t (y 0) (y 1)).trans
        ((blk4_at m c t' (y 0) (y 1)).symm.trans (congrArg (iblk m c 4 t' : Vec F S1024x512 .f32) (eq_ix2 y)).symm))

theorem blk6_same (c : Dev nD) (t t' : Fin cfg0.N) : (iblk m c 6 t : Vec F S512x1024 .f32) = iblk m c 6 t' :=
  funext fun (y : S512x1024.Idx) =>
    (congrArg (iblk m c 6 t : Vec F S512x1024 .f32) (eq_ix2 y)).trans
      ((blk6_at m c t (y 0) (y 1)).trans
        ((blk6_at m c t' (y 0) (y 1)).symm.trans (congrArg (iblk m c 6 t' : Vec F S512x1024 .f32) (eq_ix2 y)).symm))

/-! ## The scratch after any point is the fill of that point's own blocks -/

/-- The four scratch fills of the blocks handed to point `t`. -/
def fills (c : Dev nD) (t : Fin cfg0.N) :
    Vec F S512x1024 .bf16 × Vec F S1024x512 .bf16 × Vec F S1024x512 .bf16 × Vec F S512x1024 .bf16 :=
  (k0_pay2 (iblk m c 2 t), k0_pay3 (iblk m c 3 t), k0_pay4 (iblk m c 4 t), k0_pay5 (iblk m c 6 t))

theorem fills_same (c : Dev nD) (t t' : Fin cfg0.N) (h : t.val / 4 = t'.val / 4) : fills m c t = fills m c t' := by
  unfold fills
  rw [blk2_same m c t t' h, blk3_same m c t t' h, blk4_same m c t t', blk6_same m c t t']

/-- At a batch's first tile the scratch is filled from the point's blocks. -/
theorem scratch_first (c : Dev nD) (t : Fin cfg0.N) (h0 : t.val % 4 = 0) :
    (outsAt0 m c t.val t.isLt).2 = fills m c t := by
  rw [outsAt0_A m c t h0]
  simp only [Pieces.scratch0_first, Pieces.scratch1_first, Pieces.scratch2_first, Pieces.scratch3_first]
  rfl

/-- After every point the scratch holds the fills of that point's blocks: filled at a first tile, kept at the
    others, where the point before belongs to the same batch. -/
theorem scratch_inv (c : Dev nD) : ∀ (n : ℕ) (h : n < cfg0.N), (outsAt0 m c n h).2 = fills m c ⟨n, h⟩
  | 0, h => scratch_first m c ⟨0, h⟩ rfl
  | n + 1, h => by
    by_cases h0 : (n + 1) % 4 = 0
    · exact scratch_first m c ⟨n + 1, h⟩ h0
    · rw [outsAt0_B m c ⟨n + 1, h⟩ h0]
      show (outsAt0 m c n (Nat.lt_of_succ_lt h)).2 = _
      rw [scratch_inv c n (Nat.lt_of_succ_lt h)]
      exact fills_same m c ⟨n, Nat.lt_of_succ_lt h⟩ ⟨n + 1, h⟩ (by show n / 4 = (n + 1) / 4; omega)

/-! ## What every point writes back -/

/-- The output tile of point `t`: the output projection of the attention payload, over the point's blocks and
    the fills of the point's blocks. -/
def tile (c : Dev nD) (t : Fin cfg0.N) : Vec F S1x256x1024 .f32 :=
  k0_pay1 (k0_pay6 (iblk m c 0 t) (iblk m c 5 t) (k0_pay4 (iblk m c 4 t)) (iblk m c 1 t) (k0_pay2 (iblk m c 2 t))
    (k0_pay3 (iblk m c 3 t))) (iblk m c 7 t) (k0_pay5 (iblk m c 6 t))

theorem out_tile (c : Dev nD) (t : Fin cfg0.N) : (outsAt0 m c t.val t.isLt).1 = tile m c t := by
  by_cases h0 : t.val % 4 = 0
  · rw [outsAt0_A m c t h0]
    simp only [Pieces.out_first]
    rfl
  · have hlt : t.val - 1 < cfg0.N := Nat.lt_of_le_of_lt (Nat.sub_le _ _) t.isLt
    have e : (outsAt0 m c (t.val - 1) hlt).2 = fills m c t :=
      (scratch_inv m c (t.val - 1) hlt).trans (fills_same m c ⟨t.val - 1, hlt⟩ t (by show (t.val - 1) / 4 = t.val / 4; omega))
    rw [outsAt0_B m c t h0]
    simp only [Pieces.out_later]
    rw [e]
    rfl

end Cert.KernelIdeal.Tiles

end
-- ==== Proof.Spec.lean ====
/-
  The function both programs compute, one output row at a time.

  Fix a batch and a query row. From the row `d` of the decoder output (1024 entries), the row `g` of the target
  embedding (512 entries), the batch's encoder output `z` and encoder input `c` (1024 rows of 512 entries each),
  and the two linear layers `(Wi, bi)` and `(Wo, bo)`:

    x e      = (∑ k, d k · Wi k e) + bi e                       the input projection
    q e      = (x e + g e) · √½                                  the decoder state (√½ as the one f32 literal)
    s t      = ∑ e, q e · z t e                                  the score against encoder position t
    M        = the maximum of s over t, folded from −∞
    w t      = exp (s t − M) / ∑ t', exp (s t' − M)              the softmax weight
    a e      = ∑ t, w t · c t e                                  the attention context
    y e      = (x e + a e · 32) · √½                             residual plus the context scaled by √1024 = 32
    out h    = (∑ e, y e · Wo e h) + bo h                        the output projection

  Every operation is the exact one on the extended reals; the three float literals stay as the values their bit
  patterns denote and are never evaluated here. Rows of one batch share `z`, `c` and the weights and nothing else,
  which is why a tiling of the query rows computes the same array.
-/
import Idealize.ShloMosaic.PureOps.Ideal

noncomputable section

namespace Cert.Spec

open Idealize.ShloMosaic

/-- The input projection of one row: `x e = (∑ k, d k · Wi k e) + bi e`. -/
def proj (d : Fin 1024 → EReal) (Wi : Fin 1024 → Fin 512 → EReal) (bi : Fin 512 → EReal) (e : Fin 512) : EReal :=
  (∑ k : Fin 1024, d k * Wi k e) + bi e

/-- The decoder state of one row: the projection plus the target embedding, scaled by the literal √½. -/
def query (d : Fin 1024 → EReal) (g : Fin 512 → EReal) (Wi : Fin 1024 → Fin 512 → EReal) (bi : Fin 512 → EReal)
    (e : Fin 512) : EReal :=
  (proj d Wi bi e + g e) * Ideal.ofBits .f32 0x3F3504F3#32

/-- The score of one row against encoder position `t`: `∑ e, q e · z t e`. -/
def score (q : Fin 512 → EReal) (z : Fin 1024 → Fin 512 → EReal) (t : Fin 1024) : EReal :=
  ∑ e : Fin 512, q e * z t e

/-- The maximum of a row of scores, folded from negative infinity. -/
def rowMax (s : Fin 1024 → EReal) : EReal :=
  (Finset.univ : Finset (Fin 1024)).fold max (Ideal.ofBits .f32 0xFF800000#32) s

/-- The shifted exponential of a row of scores at position `t`. -/
def expShift (s : Fin 1024 → EReal) (t : Fin 1024) : EReal :=
  Ideal.exp (s t - rowMax s)

/-- The softmax weight of position `t`: the shifted exponential divided by the sum of the row's. -/
def weight (s : Fin 1024 → EReal) (t : Fin 1024) : EReal :=
  Ideal.div (expShift s t) (∑ t' : Fin 1024, expShift s t')

/-- The attention context of one row: `∑ t, w t · c t e`. -/
def context (w : Fin 1024 → EReal) (c : Fin 1024 → Fin 512 → EReal) (e : Fin 512) : EReal :=
  ∑ t : Fin 1024, w t * c t e

/-- The residual sum of one row: the input projection plus the context scaled by the literal 32. -/
def preMix (d : Fin 1024 → EReal) (g : Fin 512 → EReal) (z c : Fin 1024 → Fin 512 → EReal)
    (Wi : Fin 1024 → Fin 512 → EReal) (bi : Fin 512 → EReal) (e : Fin 512) : EReal :=
  proj d Wi bi e + context (weight (score (query d g Wi bi) z)) c e * Ideal.ofBits .f32 0x42000000#32

/-- The row before the output projection: the residual sum scaled by the literal √½. -/
def mixed (d : Fin 1024 → EReal) (g : Fin 512 → EReal) (z c : Fin 1024 → Fin 512 → EReal)
    (Wi : Fin 1024 → Fin 512 → EReal) (bi : Fin 512 → EReal) (e : Fin 512) : EReal :=
  preMix d g z c Wi bi e * Ideal.ofBits .f32 0x3F3504F3#32

/-- One output row: the output projection of the mixed row. -/
def rowOut (d : Fin 1024 → EReal) (g : Fin 512 → EReal) (z c : Fin 1024 → Fin 512 → EReal)
    (Wi : Fin 1024 → Fin 512 → EReal) (bi : Fin 512 → EReal) (Wo : Fin 512 → Fin 1024 → EReal) (bo : Fin 1024 → EReal)
    (h : Fin 1024) : EReal :=
  (∑ e : Fin 512, mixed d g z c Wi bi e * Wo e h) + bo h

end Cert.Spec

end
-- ==== Proof.LibColumn.lean ====
/-
  Small general lemmas: the keep-dimension column forms of a cast and a broadcast read at an index, and a lane
  maximum, a lane sum and the host's maximum-reduce over the columns of a rank-2 array read at a row.
-/
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.Lib

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A reduced row index with the column put back is the pair. -/
theorem lift_row {n m : ℕ} (h : (⟨2, ![n, m]⟩ : Shape).Reduces [1] (⟨1, ![n]⟩ : Shape)) (r : Fin n)
    (k : Fin ((⟨2, ![n, m]⟩ : Shape).size 1)) : h.lift (ix1 r) k = ix2 r (⟨k.val, k.isLt⟩ : Fin m) := by
  funext c; apply Fin.ext
  fin_cases c <;> rfl

/-- A lane maximum of an `[n, m]` vector at row `r` is the fold of `max` over that row. -/
theorem multiReduction_max_row {n m : ℕ} (z : FVec Ideal ⟨2, ![n, m]⟩ .f32)
    (h : (⟨2, ![n, m]⟩ : Shape).Reduces [1] (⟨1, ![n]⟩ : Shape)) (hφ : FKind.Formats .f32)
    (hacc : (0xFF800000#32 : BitVec 32) = 0xFF800000#32) (r : Fin n) :
    multiReduction .maximumf [1] ⟨1, ![n]⟩ z 0xFF800000#32 h hφ hacc (ix1 r)
      = (Finset.univ : Finset (Fin m)).fold max (Ideal.ofBits .f32 0xFF800000#32) fun j => z (ix2 r j) := by
  refine (Ideal.multiReduction_maximumf_single z 0xFF800000#32 h hφ hacc (ix1 r)).trans ?_
  have hf : (z ∘ h.lift (ix1 r)) = fun k : Fin m => z (ix2 r k) := funext fun k => congrArg z (lift_row h r k)
  exact congrArg (fun f => Finset.fold max (Ideal.ofBits .f32 0xFF800000#32) f (Finset.univ : Finset (Fin m))) hf

/-- A lane sum of an `[n, m]` vector at row `r` is the sum over that row. -/
theorem multiReduction_add_row {n m : ℕ} (z : FVec Ideal ⟨2, ![n, m]⟩ .f32)
    (h : (⟨2, ![n, m]⟩ : Shape).Reduces [1] (⟨1, ![n]⟩ : Shape)) (hφ : FKind.Formats .f32)
    (hacc : (0x00000000#32 : BitVec 32) = 0x00000000#32) (r : Fin n) :
    multiReduction .add [1] ⟨1, ![n]⟩ z 0x00000000#32 h hφ hacc (ix1 r) = ∑ j : Fin m, z (ix2 r j) := by
  refine (Ideal.multiReduction_add_single z 0x00000000#32 h hφ hacc (ix1 r)).trans ?_
  exact Finset.sum_congr rfl fun k _ => congrArg z (lift_row h r k)

/-- The host's reduce with a maximum body over the columns, at row `r`: the fold of `max` over that row from the initial value. -/
theorem hostReduce_max_row {n m : ℕ} (x : FVec Ideal ⟨2, ![n, m]⟩ .f32) (init : (⟨0, ![]⟩ : Shape).Idx → EReal)
    (h' : (⟨2, ![n, m]⟩ : Shape).ReducesTo [1] (⟨1, ![n]⟩ : Shape)) (h : (⟨2, ![n, m]⟩ : Shape).Reduces [1] (⟨1, ![n]⟩ : Shape))
    (hu : 0 < (⟨0, ![]⟩ : Shape).numel) (r : Fin n) :
    Host.reduce FloatOps.maximumf x init h' hu (ix1 r) = (Finset.univ : Finset (Fin m)).fold max (init ix0) fun j => x (ix2 r j) := by
  rw [Host.reduce_eq_fold_single FloatOps.maximumf x init h' h hu]
  have hf : (x ∘ h.lift (ix1 r)) = fun k : Fin m => x (ix2 r k) := funext fun k => congrArg x (lift_row h r k)
  have hi : init (Shape.Idx.first hu) = init ix0 := congrArg init (eq_ix0 _)
  rw [hi]
  exact congrArg (fun f => Finset.fold max (init ix0) f (Finset.univ : Finset (Fin m))) hf

/-- The logarithm and the exponential of a vector at an index are those of the element. -/
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

end Cert.Lib

end
-- ==== Proof.AttnRow.lean ====
/-
  The attention part of the kernel's body, read at one element.

  At a grid point the body holds a block of 256 query rows. Its attention value `k0_pay6` is a chain of whole-block
  operations: the input projection (a product with `W_in` plus the bias row), the decoder state (plus the target
  embedding, times the literal √½), the scores (a product with the encoder output, which the scratch buffer holds
  transposed), the row-wise softmax (lane maximum, shifted exponential, lane sum, quotient), the context (a product
  with the encoder input) and the residual sum (projection plus 32 times the context). Every one of these acts on each
  row of the block separately, so the element at row `p`, column `e` is the specification's `preMix` of row `p` of
  the block. The proof names each stage as a function of the stage before it, reads each at an index — a product into
  the zero accumulator is the sum over the shared axis, a cast that drops or adds a unit axis and a row or column
  broadcast read the operand at the matching coordinates, a change of float format is the identity, a lane reduction
  is the fold or the sum over the row — and composes the readings.
-/
import proofs.«101158_j14431090114891_2_alg».proof.Proof.Gen.KernelIdeal.Skeleton
import proofs.«101158_j14431090114891_2_alg».proof.Proof.Spec
import proofs.«101158_j14431090114891_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.AttnRow

open Idealize.ShloMosaic Idealize.ShloMosaic.ValueIdx Cert.KernelIdeal Cert.KernelIdeal.Gen

/-! ## The two products read at an index -/

theorem matmul_rows1024_lhs0 (i : S256x512.Idx) (q : dot_S256x1024_S1024x512_S256x512_1_0_0_1_n_n.contr.Idx) : (dot_S256x1024_S1024x512_S256x512_1_0_0_1_n_n.lhsIdx i q 0).val = (i 0).val := by
  unfold DotDims.lhsIdx
  rw [dif_neg (show ¬(0 : Fin S256x1024.rank) ∈ dot_S256x1024_S1024x512_S256x512_1_0_0_1_n_n.lhsBatch by decide),
    dif_pos (show (0 : Fin S256x1024.rank) ∈ dot_S256x1024_S1024x512_S256x512_1_0_0_1_n_n.lhsNonContracting by decide)]
  rfl
theorem matmul_rows1024_rhs1 (i : S256x512.Idx) (q : dot_S256x1024_S1024x512_S256x512_1_0_0_1_n_n.contr.Idx) : (dot_S256x1024_S1024x512_S256x512_1_0_0_1_n_n.rhsIdx i q 1).val = (i 1).val := by
  unfold DotDims.rhsIdx
  rw [dif_neg (show ¬(1 : Fin S1024x512.rank) ∈ dot_S256x1024_S1024x512_S256x512_1_0_0_1_n_n.rhsBatch by decide),
    dif_pos (show (1 : Fin S1024x512.rank) ∈ dot_S256x1024_S1024x512_S256x512_1_0_0_1_n_n.rhsNonContracting by decide)]
  rfl

/-- A `[256,1024] × [1024,512]` product into the zero accumulator reads, at `(p, c)`, the sum over the shared axis. -/
theorem matmul_rows1024_apply {φ₁ φ₂ : FTy} (a : FVec Ideal S256x1024 φ₁) (w : FVec Ideal S1024x512 φ₂) (p : Fin 256) (c : Fin 512) :
    matmul dot_S256x1024_S1024x512_S256x512_1_0_0_1_n_n none a w (constant S256x512 .f32 0x00000000#32) (ix2 p c)
      = ∑ k : Fin 1024, a (ix2 p k) * w (ix2 k c) := by
  refine (Ideal.matmul_constant_zero_apply dot_S256x1024_S1024x512_S256x512_1_0_0_1_n_n none a w (ix2 p c)).trans ?_
  rw [← Equiv.sum_comp (contrEquiv1 dot_S256x1024_S1024x512_S256x512_1_0_0_1_n_n 1024 rfl rfl).symm]
  refine Finset.sum_congr rfl fun k _ => ?_
  have hk := contrEquiv1_symm_val dot_S256x1024_S1024x512_S256x512_1_0_0_1_n_n 1024 rfl rfl k
  have el : dot_S256x1024_S1024x512_S256x512_1_0_0_1_n_n.lhsIdx (ix2 p c) ((contrEquiv1 dot_S256x1024_S1024x512_S256x512_1_0_0_1_n_n 1024 rfl rfl).symm k) = ix2 p k :=
    funext fun ax => Fin.ext (by
      match ax with
      | ⟨0, _⟩ => exact matmul_rows1024_lhs0 _ _
      | ⟨1, _⟩ => exact (dot_S256x1024_S1024x512_S256x512_1_0_0_1_n_n.lhsIdx_val_of_single rfl (ix2 p c) _).trans hk)
  have er : dot_S256x1024_S1024x512_S256x512_1_0_0_1_n_n.rhsIdx (ix2 p c) ((contrEquiv1 dot_S256x1024_S1024x512_S256x512_1_0_0_1_n_n 1024 rfl rfl).symm k) = ix2 k c :=
    funext fun ax => Fin.ext (by
      match ax with
      | ⟨0, _⟩ => exact (dot_S256x1024_S1024x512_S256x512_1_0_0_1_n_n.rhsIdx_val_of_single rfl (ix2 p c) _).trans hk
      | ⟨1, _⟩ => exact matmul_rows1024_rhs1 _ _)
  rw [el, er]

theorem matmul_rows512_lhs0 (i : S256x1024.Idx) (q : dot_S256x512_S512x1024_S256x1024_1_0_0_1_n_n.contr.Idx) : (dot_S256x512_S512x1024_S256x1024_1_0_0_1_n_n.lhsIdx i q 0).val = (i 0).val := by
  unfold DotDims.lhsIdx
  rw [dif_neg (show ¬(0 : Fin S256x512.rank) ∈ dot_S256x512_S512x1024_S256x1024_1_0_0_1_n_n.lhsBatch by decide),
    dif_pos (show (0 : Fin S256x512.rank) ∈ dot_S256x512_S512x1024_S256x1024_1_0_0_1_n_n.lhsNonContracting by decide)]
  rfl
theorem matmul_rows512_rhs1 (i : S256x1024.Idx) (q : dot_S256x512_S512x1024_S256x1024_1_0_0_1_n_n.contr.Idx) : (dot_S256x512_S512x1024_S256x1024_1_0_0_1_n_n.rhsIdx i q 1).val = (i 1).val := by
  unfold DotDims.rhsIdx
  rw [dif_neg (show ¬(1 : Fin S512x1024.rank) ∈ dot_S256x512_S512x1024_S256x1024_1_0_0_1_n_n.rhsBatch by decide),
    dif_pos (show (1 : Fin S512x1024.rank) ∈ dot_S256x512_S512x1024_S256x1024_1_0_0_1_n_n.rhsNonContracting by decide)]
  rfl

/-- A `[256,512] × [512,1024]` product into the zero accumulator reads, at `(p, c)`, the sum over the shared axis. -/
theorem matmul_rows512_apply {φ₁ φ₂ : FTy} (a : FVec Ideal S256x512 φ₁) (w : FVec Ideal S512x1024 φ₂) (p : Fin 256) (c : Fin 1024) :
    matmul dot_S256x512_S512x1024_S256x1024_1_0_0_1_n_n none a w (constant S256x1024 .f32 0x00000000#32) (ix2 p c)
      = ∑ k : Fin 512, a (ix2 p k) * w (ix2 k c) := by
  refine (Ideal.matmul_constant_zero_apply dot_S256x512_S512x1024_S256x1024_1_0_0_1_n_n none a w (ix2 p c)).trans ?_
  rw [← Equiv.sum_comp (contrEquiv1 dot_S256x512_S512x1024_S256x1024_1_0_0_1_n_n 512 rfl rfl).symm]
  refine Finset.sum_congr rfl fun k _ => ?_
  have hk := contrEquiv1_symm_val dot_S256x512_S512x1024_S256x1024_1_0_0_1_n_n 512 rfl rfl k
  have el : dot_S256x512_S512x1024_S256x1024_1_0_0_1_n_n.lhsIdx (ix2 p c) ((contrEquiv1 dot_S256x512_S512x1024_S256x1024_1_0_0_1_n_n 512 rfl rfl).symm k) = ix2 p k :=
    funext fun ax => Fin.ext (by
      match ax with
      | ⟨0, _⟩ => exact matmul_rows512_lhs0 _ _
      | ⟨1, _⟩ => exact (dot_S256x512_S512x1024_S256x1024_1_0_0_1_n_n.lhsIdx_val_of_single rfl (ix2 p c) _).trans hk)
  have er : dot_S256x512_S512x1024_S256x1024_1_0_0_1_n_n.rhsIdx (ix2 p c) ((contrEquiv1 dot_S256x512_S512x1024_S256x1024_1_0_0_1_n_n 512 rfl rfl).symm k) = ix2 k c :=
    funext fun ax => Fin.ext (by
      match ax with
      | ⟨0, _⟩ => exact (dot_S256x512_S512x1024_S256x1024_1_0_0_1_n_n.rhsIdx_val_of_single rfl (ix2 p c) _).trans hk
      | ⟨1, _⟩ => exact matmul_rows512_rhs1 _ _)
  rw [el, er]

/-! ## The stages of the attention payload, each as a function of the stage before -/

/-- The input projection of the block: the decoder rows times `W_in`, plus the bias row. -/
def projBlk (v3 : Vec Ideal S1x256x1024 .f32) (v5 : Vec Ideal S512 .f32) (v7 : Vec Ideal S1024x512 .bf16) :
    FVec Ideal S256x512 .f32 :=
  addf
    (matmul (φ₂ := .bf16) dot_S256x1024_S1024x512_S256x512_1_0_0_1_n_n none
      (truncf .bf16 (shapeCast S256x1024 v3 shapeCasts_S1x256x1024_S256x1024) bitsLt_bf16_f32) v7
      (constant S256x512 .f32 0x00000000#32))
    (broadcastTo S256x512 (shapeCast S1x512 v5 shapeCasts_S512_S1x512) broadcasts_S1x512_S256x512)

/-- The decoder state of the block: the projection plus the target embedding, scaled by the literal √½. -/
def queryBlk (x : FVec Ideal S256x512 .f32) (v12 : Vec Ideal S1x256x512 .f32) : FVec Ideal S256x512 .f32 :=
  mulf (addf x (shapeCast S256x512 v12 shapeCasts_S1x256x512_S256x512))
    (broadcast S256x512 (Scalar.ofBits .f32 0x3F3504F3#32))

/-- The scores of the block against every encoder position: the state times the transposed encoder output. -/
def scoreBlk (q : FVec Ideal S256x512 .f32) (v18 : Vec Ideal S512x1024 .bf16) : FVec Ideal S256x1024 .f32 :=
  matmul (φ₂ := .bf16) dot_S256x512_S512x1024_S256x1024_1_0_0_1_n_n none (truncf .bf16 q bitsLt_bf16_f32) v18
    (constant S256x1024 .f32 0x00000000#32)

/-- The shifted exponentials: each row of scores minus its lane maximum, exponentiated. -/
def expBlk (s : FVec Ideal S256x1024 .f32) : FVec Ideal S256x1024 .f32 :=
  exp (subf s
    (broadcastTo S256x1024
      (shapeCast S256x1 (multiReduction .maximumf [1] S256 s 0xFF800000#32 reduces_S256x1024_S256 (.inl rfl) rfl)
        shapeCasts_S256_S256x1)
      broadcasts_S256x1_S256x1024))

/-- The softmax weights: each row of exponentials divided by its lane sum. -/
def weightBlk (x : FVec Ideal S256x1024 .f32) : FVec Ideal S256x1024 .f32 :=
  divf x
    (broadcastTo S256x1024
      (shapeCast S256x1 (multiReduction .add [1] S256 x 0x00000000#32 reduces_S256x1024_S256 (.inl rfl) rfl)
        shapeCasts_S256_S256x1)
      broadcasts_S256x1_S256x1024)

/-- The attention context of the block: the weights times the encoder input. -/
def contextBlk (w : FVec Ideal S256x1024 .f32) (v30 : Vec Ideal S1024x512 .bf16) : FVec Ideal S256x512 .f32 :=
  matmul (φ₂ := .bf16) dot_S256x1024_S1024x512_S256x512_1_0_0_1_n_n none (truncf .bf16 w bitsLt_bf16_f32) v30
    (constant S256x512 .f32 0x00000000#32)

/-- The residual sum: the projection plus the context scaled by the literal 32. -/
def mixBlk (x a : FVec Ideal S256x512 .f32) : FVec Ideal S256x512 .f32 :=
  addf x (mulf a (broadcast S256x512 (Scalar.ofBits .f32 0x42000000#32)))

/-- The attention payload is the composition of its stages. -/
theorem pay6_eq_stages (v3 : Vec Ideal S1x256x1024 .f32) (v5 : Vec Ideal S512 .f32) (v7 : Vec Ideal S1024x512 .bf16)
    (v12 : Vec Ideal S1x256x512 .f32) (v18 : Vec Ideal S512x1024 .bf16) (v30 : Vec Ideal S1024x512 .bf16) :
    k0_pay6 (F := Ideal) v3 v5 v7 v12 v18 v30
      = mixBlk (projBlk v3 v5 v7)
          (contextBlk (weightBlk (expBlk (scoreBlk (queryBlk (projBlk v3 v5 v7) v12) v18))) v30) := rfl

/-! ## Each stage read at an index -/

theorem projBlk_apply (v3 : Vec Ideal S1x256x1024 .f32) (v5 : Vec Ideal S512 .f32) (v7 : Vec Ideal S1024x512 .bf16)
    (p : Fin 256) (e : Fin 512) :
    projBlk v3 v5 v7 (ix2 p e)
      = Cert.Spec.proj (fun k => v3 (ix3 (0 : Fin 1) p k)) (fun k e' => v7 (ix2 k e')) (fun e' => v5 (ix1 e')) e := by
  unfold projBlk Cert.Spec.proj
  rw [addf_apply, matmul_rows1024_apply, broadcastTo_1b_ab_apply, shapeCast_a_1a_apply]
  refine congrArg (· + v5 (ix1 e)) (Finset.sum_congr rfl fun k _ => ?_)
  rw [truncf_apply, shapeCast_1ab_ab_apply]

theorem queryBlk_apply (x : FVec Ideal S256x512 .f32) (v12 : Vec Ideal S1x256x512 .f32) (p : Fin 256) (e : Fin 512) :
    queryBlk x v12 (ix2 p e) = (x (ix2 p e) + v12 (ix3 (0 : Fin 1) p e)) * Ideal.ofBits .f32 0x3F3504F3#32 := by
  unfold queryBlk
  rw [mulf_apply, addf_apply, shapeCast_1ab_ab_apply]
  rfl

theorem scoreBlk_apply (q : FVec Ideal S256x512 .f32) (v18 : Vec Ideal S512x1024 .bf16) (p : Fin 256) (t : Fin 1024) :
    scoreBlk q v18 (ix2 p t) = Cert.Spec.score (fun e => q (ix2 p e)) (fun t' e => v18 (ix2 e t')) t := by
  unfold scoreBlk Cert.Spec.score
  exact matmul_rows512_apply _ v18 p t

theorem expBlk_apply (s : FVec Ideal S256x1024 .f32) (p : Fin 256) (t : Fin 1024) :
    expBlk s (ix2 p t) = Cert.Spec.expShift (fun t' => s (ix2 p t')) t := by
  unfold expBlk Cert.Spec.expShift Cert.Spec.rowMax
  rw [Cert.Lib.exp_apply, subf_apply, Cert.Lib.broadcastTo_a1_ab_apply, Cert.Lib.shapeCast_a_a1_apply,
    Cert.Lib.multiReduction_max_row]

theorem weightBlk_apply (x : FVec Ideal S256x1024 .f32) (p : Fin 256) (t : Fin 1024) :
    weightBlk x (ix2 p t) = Ideal.div (x (ix2 p t)) (∑ t' : Fin 1024, x (ix2 p t')) := by
  unfold weightBlk
  rw [divf_apply, Cert.Lib.broadcastTo_a1_ab_apply, Cert.Lib.shapeCast_a_a1_apply, Cert.Lib.multiReduction_add_row]

theorem contextBlk_apply (w : FVec Ideal S256x1024 .f32) (v30 : Vec Ideal S1024x512 .bf16) (p : Fin 256) (e : Fin 512) :
    contextBlk w v30 (ix2 p e) = Cert.Spec.context (fun t => w (ix2 p t)) (fun t e' => v30 (ix2 t e')) e := by
  unfold contextBlk Cert.Spec.context
  exact matmul_rows1024_apply _ v30 p e

theorem mixBlk_apply (x a : FVec Ideal S256x512 .f32) (p : Fin 256) (e : Fin 512) :
    mixBlk x a (ix2 p e) = x (ix2 p e) + a (ix2 p e) * Ideal.ofBits .f32 0x42000000#32 := rfl

/-! ## The payload read at an index -/

/-- The attention payload at row `p`, column `e` of the block is the residual sum of the specification, of the block's
    row `p` of the decoder output and of the target embedding, the batch's encoder output (held transposed) and
    encoder input, and the input layer. -/
theorem pay6_at
    (v3 : Vec Ideal S1x256x1024 .f32) (v5 : Vec Ideal S512 .f32) (v7 : Vec Ideal S1024x512 .bf16)
    (v12 : Vec Ideal S1x256x512 .f32) (v18 : Vec Ideal S512x1024 .bf16) (v30 : Vec Ideal S1024x512 .bf16)
    (p : Fin 256) (e : Fin 512) :
    k0_pay6 (F := Ideal) v3 v5 v7 v12 v18 v30 (ix2 p e)
      = Cert.Spec.preMix (fun k => v3 (ix3 (0 : Fin 1) p k)) (fun e' => v12 (ix3 (0 : Fin 1) p e'))
          (fun t e' => v18 (ix2 e' t)) (fun t e' => v30 (ix2 t e')) (fun k e' => v7 (ix2 k e'))
          (fun e' => v5 (ix1 e')) e := by
  -- the query row: the state of row `p`
  have hq : (fun e' => queryBlk (projBlk v3 v5 v7) v12 (ix2 p e'))
      = Cert.Spec.query (fun k => v3 (ix3 (0 : Fin 1) p k)) (fun e' => v12 (ix3 (0 : Fin 1) p e'))
          (fun k e' => v7 (ix2 k e')) (fun e' => v5 (ix1 e')) :=
    funext fun e' => by rw [queryBlk_apply, projBlk_apply]; rfl
  -- its scores
  have hs : (fun t => scoreBlk (queryBlk (projBlk v3 v5 v7) v12) v18 (ix2 p t))
      = Cert.Spec.score (Cert.Spec.query (fun k => v3 (ix3 (0 : Fin 1) p k)) (fun e' => v12 (ix3 (0 : Fin 1) p e'))
          (fun k e' => v7 (ix2 k e')) (fun e' => v5 (ix1 e'))) (fun t e' => v18 (ix2 e' t)) :=
    funext fun t => (scoreBlk_apply _ v18 p t).trans (congrArg (fun q => Cert.Spec.score q (fun t e' => v18 (ix2 e' t)) t) hq)
  -- their shifted exponentials
  have hx : (fun t => expBlk (scoreBlk (queryBlk (projBlk v3 v5 v7) v12) v18) (ix2 p t))
      = Cert.Spec.expShift (Cert.Spec.score (Cert.Spec.query (fun k => v3 (ix3 (0 : Fin 1) p k))
          (fun e' => v12 (ix3 (0 : Fin 1) p e')) (fun k e' => v7 (ix2 k e')) (fun e' => v5 (ix1 e')))
          (fun t e' => v18 (ix2 e' t))) :=
    funext fun t => (expBlk_apply _ p t).trans (congrArg (fun s => Cert.Spec.expShift s t) hs)
  -- the softmax weights
  have hw : (fun t => weightBlk (expBlk (scoreBlk (queryBlk (projBlk v3 v5 v7) v12) v18)) (ix2 p t))
      = Cert.Spec.weight (Cert.Spec.score (Cert.Spec.query (fun k => v3 (ix3 (0 : Fin 1) p k))
          (fun e' => v12 (ix3 (0 : Fin 1) p e')) (fun k e' => v7 (ix2 k e')) (fun e' => v5 (ix1 e')))
          (fun t e' => v18 (ix2 e' t))) :=
    funext fun t => (weightBlk_apply _ p t).trans
      (congrArg (fun x : Fin 1024 → EReal => Ideal.div (x t) (∑ t' : Fin 1024, x t')) hx)
  rw [pay6_eq_stages, mixBlk_apply, projBlk_apply, contextBlk_apply]
  exact congrArg
    (fun w => Cert.Spec.proj (fun k => v3 (ix3 (0 : Fin 1) p k)) (fun k e' => v7 (ix2 k e')) (fun e' => v5 (ix1 e')) e
      + Cert.Spec.context w (fun t e' => v30 (ix2 t e')) e * Ideal.ofBits .f32 0x42000000#32) hw

end Cert.AttnRow

end
-- ==== Proof.OutRow.lean ====
/-
  The kernel's output projection and its four scratch fills, each read at an index given by coordinates.
  At the ideal values a change of float format is the identity and a matmul into a zero accumulator is the
  plain sum of products over its one contracted axis, so each payload is a closed expression in the values
  the body loads.
-/
import proofs.«101158_j14431090114891_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.OutRow

open Idealize.ShloMosaic Idealize.ShloMosaic.ValueIdx Cert.KernelIdeal Cert.KernelIdeal.Gen

/-! ## The four scratch fills read at an index

Each fill ends in a cast of a shape to itself, which is the identity, and narrows the format, which on
extended reals is the identity too. What is left is the layout: the encoder output and the encoder input
lose the leading unit axis of their block, and the encoder output is also transposed. -/

/-- The encoder output, transposed: element `(e, t)` of the fill is element `(0, t, e)` of the block. -/
theorem pay2_at (v47 : Vec Ideal S1x1024x512 .f32) (e : Fin 512) (t : Fin 1024) :
    k0_pay2 (F := Ideal) v47 (ix2 e t) = v47 (ix3 (0 : Fin 1) t e) := by
  unfold k0_pay2
  rw [shapeCast_self]
  refine (truncf_apply (φ := .f32) (ψ := .bf16) _ bitsLt_bf16_f32 _).trans ?_
  refine (transpose_ix2_apply _ transposes_S1024x512_p1_0_S512x1024 e t).trans ?_
  exact shapeCast_1ab_ab_apply v47 shapeCasts_S1x1024x512_S1024x512 t e

/-- The encoder input: element `(t, e)` of the fill is element `(0, t, e)` of the block. -/
theorem pay3_at (v54 : Vec Ideal S1x1024x512 .f32) (t : Fin 1024) (e : Fin 512) :
    k0_pay3 (F := Ideal) v54 (ix2 t e) = v54 (ix3 (0 : Fin 1) t e) := by
  unfold k0_pay3
  rw [shapeCast_self]
  refine (truncf_apply (φ := .f32) (ψ := .bf16) _ bitsLt_bf16_f32 _).trans ?_
  exact shapeCast_1ab_ab_apply v54 shapeCasts_S1x1024x512_S1024x512 t e

/-- The input weights: the fill is the array itself. -/
theorem pay4_at (v60 : Vec Ideal S1024x512 .f32) (k : Fin 1024) (e : Fin 512) :
    k0_pay4 (F := Ideal) v60 (ix2 k e) = v60 (ix2 k e) := by
  unfold k0_pay4
  rw [shapeCast_self]
  exact truncf_apply _ _ _

/-- The output weights: the fill is the array itself. -/
theorem pay5_at (v65 : Vec Ideal S512x1024 .f32) (e : Fin 512) (k : Fin 1024) :
    k0_pay5 (F := Ideal) v65 (ix2 e k) = v65 (ix2 e k) := by
  unfold k0_pay5
  rw [shapeCast_self]
  exact truncf_apply _ _ _

/-! ## The output projection read at an index

The projection is one matmul of a `[256, 512]` left operand with the `[512, 1024]` output weights, contracting
the left operand's axis 1 with the right operand's axis 0. Its dimension numbers place an output index
`(p, q)` and a contraction position `k` at `(p, k)` in the left operand and at `(k, q)` in the right one: the
four coordinates below. -/

/-- The left operand's row is the output's row. -/
theorem lhs_0 (i : S256x1024.Idx) (k : dot_S256x512_S512x1024_S256x1024_1_0_0_1_n_n.contr.Idx) :
    (dot_S256x512_S512x1024_S256x1024_1_0_0_1_n_n.lhsIdx i k 0).val = (i 0).val := by
  unfold DotDims.lhsIdx
  rw [dif_neg (show ¬(0 : Fin S256x512.rank) ∈ dot_S256x512_S512x1024_S256x1024_1_0_0_1_n_n.lhsBatch by decide),
    dif_pos (show (0 : Fin S256x512.rank) ∈ dot_S256x512_S512x1024_S256x1024_1_0_0_1_n_n.lhsNonContracting by decide)]
  rfl

/-- The left operand's column is the contraction position. -/
theorem lhs_1 (i : S256x1024.Idx) (k : dot_S256x512_S512x1024_S256x1024_1_0_0_1_n_n.contr.Idx) :
    (dot_S256x512_S512x1024_S256x1024_1_0_0_1_n_n.lhsIdx i k 1).val = (k ⟨0, by decide⟩).val :=
  dot_S256x512_S512x1024_S256x1024_1_0_0_1_n_n.lhsIdx_val_of_single rfl i k

/-- The right operand's row is the contraction position. -/
theorem rhs_0 (i : S256x1024.Idx) (k : dot_S256x512_S512x1024_S256x1024_1_0_0_1_n_n.contr.Idx) :
    (dot_S256x512_S512x1024_S256x1024_1_0_0_1_n_n.rhsIdx i k 0).val = (k ⟨0, by decide⟩).val :=
  dot_S256x512_S512x1024_S256x1024_1_0_0_1_n_n.rhsIdx_val_of_single rfl i k

/-- The right operand's column is the output's column. -/
theorem rhs_1 (i : S256x1024.Idx) (k : dot_S256x512_S512x1024_S256x1024_1_0_0_1_n_n.contr.Idx) :
    (dot_S256x512_S512x1024_S256x1024_1_0_0_1_n_n.rhsIdx i k 1).val = (i 1).val := by
  unfold DotDims.rhsIdx
  rw [dif_neg (show ¬(1 : Fin S512x1024.rank) ∈ dot_S256x512_S512x1024_S256x1024_1_0_0_1_n_n.rhsBatch by decide),
    dif_pos (show (1 : Fin S512x1024.rank) ∈ dot_S256x512_S512x1024_S256x1024_1_0_0_1_n_n.rhsNonContracting by decide)]
  rfl

/-- The matmul into the zero accumulator, read at `(p, q)`: the sum over `e : Fin 512` of the left operand at
`(p, e)` times the right operand at `(e, q)`. The library gives the sum over the contraction shape's index set;
that set has one axis of extent 512, and the sum is carried over to `Fin 512` along that bijection. -/
theorem matmul_at (a : FVec Ideal S256x512 .bf16) (b : FVec Ideal S512x1024 .bf16) (p : Fin 256) (q : Fin 1024) :
    matmul dot_S256x512_S512x1024_S256x1024_1_0_0_1_n_n none a b (constant (F := Ideal) S256x1024 .f32 0x00000000#32) (ix2 p q)
      = ∑ e : Fin 512, a (ix2 p e) * b (ix2 e q) := by
  refine (Ideal.matmul_constant_zero_apply dot_S256x512_S512x1024_S256x1024_1_0_0_1_n_n none a b (ix2 p q)).trans ?_
  rw [← Equiv.sum_comp (contrEquiv1 dot_S256x512_S512x1024_S256x1024_1_0_0_1_n_n 512 rfl rfl).symm]
  refine Finset.sum_congr rfl fun e _ => ?_
  have he := contrEquiv1_symm_val dot_S256x512_S512x1024_S256x1024_1_0_0_1_n_n 512 rfl rfl e
  have el : dot_S256x512_S512x1024_S256x1024_1_0_0_1_n_n.lhsIdx (ix2 p q)
      ((contrEquiv1 dot_S256x512_S512x1024_S256x1024_1_0_0_1_n_n 512 rfl rfl).symm e) = ix2 p e :=
    funext fun c => Fin.ext (by
      match c with
      | ⟨0, _⟩ => exact lhs_0 _ _
      | ⟨1, _⟩ => exact (lhs_1 _ _).trans he)
  have er : dot_S256x512_S512x1024_S256x1024_1_0_0_1_n_n.rhsIdx (ix2 p q)
      ((contrEquiv1 dot_S256x512_S512x1024_S256x1024_1_0_0_1_n_n 512 rfl rfl).symm e) = ix2 e q :=
    funext fun c => Fin.ext (by
      match c with
      | ⟨0, _⟩ => exact (rhs_0 _ _).trans he
      | ⟨1, _⟩ => exact rhs_1 _ _)
  rw [el, er]

/-- The output projection of any `[256, 512]` value: each element is scaled by the literal, the scaled row `p` is
contracted with column `q` of the output weights, and the output bias at `q` is added. The casts that add the
block's leading unit axis and the bias's, and the broadcast of the bias row over the 256 rows, only move
coordinates. -/
theorem pay1_at (v34 : FVec Ideal S256x512 .f32) (v37 : Vec Ideal S1024 .f32) (v39 : Vec Ideal S512x1024 .bf16)
    (p : Fin 256) (q : Fin 1024) :
    k0_pay1 (F := Ideal) v34 v37 v39 (ix3 (0 : Fin 1) p q)
      = (∑ e : Fin 512, (v34 (ix2 p e) * Ideal.ofBits .f32 0x3F3504F3#32) * v39 (ix2 e q)) + v37 (ix1 q) := by
  unfold k0_pay1
  refine (shapeCast_ab_1ab_apply _ shapeCasts_S256x1024_S1x256x1024 (0 : Fin 1) p q).trans ?_
  refine (addf_apply (φ := .f32) _ _ _).trans ?_
  refine congrArg₂ (· + ·) ?_ ?_
  · refine (matmul_at _ v39 p q).trans ?_
    rfl
  · refine (broadcastTo_1b_ab_apply _ broadcasts_S1x1024_S256x1024 p q).trans ?_
    exact shapeCast_a_1a_apply v37 shapeCasts_S1024_S1x1024 (0 : Fin 1) q

end Cert.OutRow

end
-- ==== Proof.Whole.lean ====
/-
  The whole result array as one function of the eight argument arrays: entry (b, s, h) is entry h of the output row
  computed from row (b, s) of the decoder output and of the target embedding, batch b of the encoder output and
  of the encoder input, and the two linear layers.
-/
import proofs.«101158_j14431090114891_2_alg».proof.Proof.Spec
import Idealize.ShloMosaic.Lib.ValueIdx

noncomputable section

namespace Cert.Spec

open Idealize.ShloMosaic Idealize.ShloMosaic.ValueIdx

/-- The result array, index by index. -/
def whole (a0 : (⟨3, ![32, 1024, 1024]⟩ : Shape).Idx → EReal) (a1 a2 a3 : (⟨3, ![32, 1024, 512]⟩ : Shape).Idx → EReal)
    (a4 : (⟨2, ![1024, 512]⟩ : Shape).Idx → EReal) (a5 : (⟨1, ![512]⟩ : Shape).Idx → EReal)
    (a6 : (⟨2, ![512, 1024]⟩ : Shape).Idx → EReal) (a7 : (⟨1, ![1024]⟩ : Shape).Idx → EReal) :
    (⟨3, ![32, 1024, 1024]⟩ : Shape).Idx → EReal :=
  fun i => rowOut (fun k => a0 (ix3 (i 0 : Fin 32) (i 1 : Fin 1024) k)) (fun e => a1 (ix3 (i 0 : Fin 32) (i 1 : Fin 1024) e))
    (fun t e => a2 (ix3 (i 0 : Fin 32) t e)) (fun t e => a3 (ix3 (i 0 : Fin 32) t e)) (fun k e => a4 (ix2 k e))
    (fun e => a5 (ix1 e)) (fun e k => a6 (ix2 e k)) (fun k => a7 (ix1 k)) (i 2 : Fin 1024)

/-- At an index given by its coordinates. -/
theorem whole_ix3 (a0 : (⟨3, ![32, 1024, 1024]⟩ : Shape).Idx → EReal) (a1 a2 a3 : (⟨3, ![32, 1024, 512]⟩ : Shape).Idx → EReal)
    (a4 : (⟨2, ![1024, 512]⟩ : Shape).Idx → EReal) (a5 : (⟨1, ![512]⟩ : Shape).Idx → EReal)
    (a6 : (⟨2, ![512, 1024]⟩ : Shape).Idx → EReal) (a7 : (⟨1, ![1024]⟩ : Shape).Idx → EReal)
    (b : Fin 32) (s : Fin 1024) (h : Fin 1024) :
    whole a0 a1 a2 a3 a4 a5 a6 a7 (ix3 b s h)
      = rowOut (fun k => a0 (ix3 b s k)) (fun e => a1 (ix3 b s e)) (fun t e => a2 (ix3 b t e)) (fun t e => a3 (ix3 b t e))
          (fun k e => a4 (ix2 k e)) (fun e => a5 (ix1 e)) (fun e k => a6 (ix2 e k)) (fun k => a7 (ix1 k)) h := rfl

end Cert.Spec

end
-- ==== Proof.Final.lean ====
/-
  The kernel's result array, over the extended reals, is the whole-array function of its eight argument arrays.

  Entry (p, q) of the tile written back at point t is the output projection, read at column q, of the attention
  payload's row p; that row is the residual sum of the specification for the block's row p; and the block's row p is
  the argument arrays' row 256 · (t % 4) + p of batch t / 4. So the tile is the block of the whole-array function at
  batch t / 4 and rows 256 · (t % 4) … + 255. The 128 blocks tile the array: row s of batch b lies in the block of
  point 4 b + s / 256.
-/
import proofs.«101158_j14431090114891_2_alg».proof.Proof.Tiles
import proofs.«101158_j14431090114891_2_alg».proof.Proof.AttnRow
import proofs.«101158_j14431090114891_2_alg».proof.Proof.OutRow
import proofs.«101158_j14431090114891_2_alg».proof.Proof.Whole

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen

variable (m : (ℓ : Loc nD τ sig) → Buf (Elt Ideal) ℓ) (ρ : Dev nD → PrngReg)

/-- The tile of point `t` at (p, q) is the whole-array function at the point's batch, the tile row's array row,
    and column q. -/
theorem tile_at (c : Dev nD) (t : Fin cfg0.N) (u : Fin 1) (p : Fin 256) (q : Fin 1024) :
    Tiles.tile m c t (ix3 u p q)
      = Cert.Spec.whole (V m c main_arg0) (V m c main_arg1) (V m c main_arg2) (V m c main_arg3) (V m c main_arg4) (V m c main_arg5) (V m c main_arg6) (V m c main_arg7) (ix3 (Tiles.batch t) (Tiles.arow t p) q) := by
  obtain rfl : u = 0 := Subsingleton.elim _ _
  have hD : (fun k : Fin 1024 => (iblk m c 0 t : Vec Ideal S1x256x1024 .f32) (ix3 (0 : Fin 1) p k))
      = fun k => V m c main_arg0 (ix3 (Tiles.batch t) (Tiles.arow t p) k) :=
    funext fun k => Tiles.blk0_at m c t 0 p k
  have hg : (fun e : Fin 512 => (iblk m c 1 t : Vec Ideal S1x256x512 .f32) (ix3 (0 : Fin 1) p e))
      = fun e => V m c main_arg1 (ix3 (Tiles.batch t) (Tiles.arow t p) e) :=
    funext fun e => Tiles.blk1_at m c t 0 p e
  have hz : (fun (t' : Fin 1024) (e : Fin 512) => k0_pay2 (F := Ideal) (iblk m c 2 t) (ix2 e t'))
      = fun t' e => V m c main_arg2 (ix3 (Tiles.batch t) t' e) :=
    funext fun t' => funext fun e => (Cert.OutRow.pay2_at (iblk m c 2 t) e t').trans (Tiles.blk2_at m c t 0 t' e)
  have hc : (fun (t' : Fin 1024) (e : Fin 512) => k0_pay3 (F := Ideal) (iblk m c 3 t) (ix2 t' e))
      = fun t' e => V m c main_arg3 (ix3 (Tiles.batch t) t' e) :=
    funext fun t' => funext fun e => (Cert.OutRow.pay3_at (iblk m c 3 t) t' e).trans (Tiles.blk3_at m c t 0 t' e)
  have hWi : (fun (k : Fin 1024) (e : Fin 512) => k0_pay4 (F := Ideal) (iblk m c 4 t) (ix2 k e))
      = fun k e => V m c main_arg4 (ix2 k e) :=
    funext fun k => funext fun e => (Cert.OutRow.pay4_at (iblk m c 4 t) k e).trans (Tiles.blk4_at m c t k e)
  have hbi : (fun e : Fin 512 => (iblk m c 5 t : Vec Ideal S512 .f32) (ix1 e)) = fun e => V m c main_arg5 (ix1 e) :=
    funext fun e => Tiles.blk5_at m c t e
  unfold Tiles.tile
  rw [Cert.OutRow.pay1_at, Cert.Spec.whole_ix3]
  unfold Cert.Spec.rowOut Cert.Spec.mixed
  refine congrArg₂ (· + ·) (Finset.sum_congr rfl fun e _ => ?_) (Tiles.blk7_at m c t q)
  rw [Cert.AttnRow.pay6_at, Cert.OutRow.pay5_at, Tiles.blk6_at, hD, hg, hz, hc, hWi, hbi]

/-- Where block `t` of the output sits in the array. -/
theorem emb_out (t : Fin cfg0.N) (y : S1x256x1024.Idx) :
    ((cfg0.win 8).blk t).view.emb y = ix3 (Tiles.batch t) (Tiles.arow t (y 1)) (y 2) := by
  obtain ⟨-, -, -, -, -, -, -, -, ⟨e0, e1, e2⟩⟩ := Tiles.idx_facts t
  funext a; apply Fin.ext
  have hu : (y 0).val < 1 := (y 0).isLt
  match a with
  | ⟨0, _⟩ => show win0_8.index t (0 : Fin 3) * 1 + 1 * (y 0).val = t.val / 4; omega
  | ⟨1, _⟩ => show win0_8.index t (1 : Fin 3) * 256 + 1 * (y 1).val = 256 * (t.val % 4) + (y 1).val; omega
  | ⟨2, _⟩ => show win0_8.index t (2 : Fin 3) * 1024 + 1 * (y 2).val = (y 2).val; omega

/-- What point `t` writes back is block `t` of the whole-array function of the argument arrays. -/
theorem flushed_eq (c : Dev nD) (t : Fin cfg0.N) :
    (dats m 0 c).flushed 8 t = ((cfg0.win 8).blk t).view.read (Elt Ideal) (Cert.Spec.whole (V m c main_arg0) (V m c main_arg1) (V m c main_arg2) (V m c main_arg3) (V m c main_arg4) (V m c main_arg5) (V m c main_arg6) (V m c main_arg7)) := by
  rw [Cert.KernelIdeal.Value.flushed8, Tiles.out_tile]
  refine funext fun (y : S1x256x1024.Idx) => ?_
  show Tiles.tile m c t y = Cert.Spec.whole (V m c main_arg0) (V m c main_arg1) (V m c main_arg2) (V m c main_arg3) (V m c main_arg4) (V m c main_arg5) (V m c main_arg6) (V m c main_arg7) (((cfg0.win 8).blk t).view.emb y)
  rw [emb_out]
  exact (congrArg (Tiles.tile m c t) (eq_ix3 y)).trans (tile_at m c t (y 0) (y 1) (y 2))

/-- An index of the array is in point `t`'s block iff each coordinate is in the block's range on its axis. -/
theorem mem_blk (t : Fin cfg0.N) (i : S32x1024x1024.Idx) :
    i ∈ ((cfg0.win 8).blk t).view.set ↔ ∀ a : Fin 3, win0_8.index t a * S1x256x1024.size a ≤ (i a).val
      ∧ (i a).val < win0_8.index t a * S1x256x1024.size a + S1x256x1024.size a := by
  show i ∈ ((View.whole main_v0).slice (win0_8.rect t)).set ↔ _
  rw [View.set_slice_whole, Rect.mem_set_unit]
  exact Iff.rfl

/-- Every index of the array lies in some point's block: row s of batch b in the block of point 4 b + s / 256. -/
theorem cover (i : S32x1024x1024.Idx) :
    ∃ t : Fin cfg0.N, (cfg0.win 8).flush t = true ∧ i ∈ ((cfg0.win 8).blk t).view.set := by
  have h0 : (i 0).val < 32 := (i 0).isLt
  have h1 : (i 1).val < 1024 := (i 1).isLt
  have h2 : (i 2).val < 1024 := (i 2).isLt
  have hlt : 4 * (i 0).val + (i 1).val / 256 < cfg0.N := by rw [Tiles.hN]; omega
  refine ⟨⟨4 * (i 0).val + (i 1).val / 256, hlt⟩, flush0_8 _, ?_⟩
  obtain ⟨-, -, -, -, -, -, -, -, ⟨e0, e1, e2⟩⟩ := Tiles.idx_facts ⟨4 * (i 0).val + (i 1).val / 256, hlt⟩
  rw [mem_blk]
  intro a
  match a with
  | ⟨0, _⟩ =>
    show win0_8.index ⟨4 * (i 0).val + (i 1).val / 256, hlt⟩ (0 : Fin 3) * 1 ≤ (i 0).val
      ∧ (i 0).val < win0_8.index ⟨4 * (i 0).val + (i 1).val / 256, hlt⟩ (0 : Fin 3) * 1 + 1
    rw [e0]; show (4 * (i 0).val + (i 1).val / 256) / 4 * 1 ≤ (i 0).val ∧ (i 0).val < (4 * (i 0).val + (i 1).val / 256) / 4 * 1 + 1
    omega
  | ⟨1, _⟩ =>
    show win0_8.index ⟨4 * (i 0).val + (i 1).val / 256, hlt⟩ (1 : Fin 3) * 256 ≤ (i 1).val
      ∧ (i 1).val < win0_8.index ⟨4 * (i 0).val + (i 1).val / 256, hlt⟩ (1 : Fin 3) * 256 + 256
    rw [e1]; show (4 * (i 0).val + (i 1).val / 256) % 4 * 256 ≤ (i 1).val ∧ (i 1).val < (4 * (i 0).val + (i 1).val / 256) % 4 * 256 + 256
    omega
  | ⟨2, _⟩ =>
    show win0_8.index ⟨4 * (i 0).val + (i 1).val / 256, hlt⟩ (2 : Fin 3) * 1024 ≤ (i 2).val
      ∧ (i 2).val < win0_8.index ⟨4 * (i 0).val + (i 1).val / 256, hlt⟩ (2 : Fin 3) * 1024 + 1024
    rw [e2]; omega

/-- So the result array ends holding the whole-array function of the argument arrays. -/
theorem final (c : Dev nD) : (dats m 0 c).arrAt 8 cfg0.N = Cert.Spec.whole (V m c main_arg0) (V m c main_arg1) (V m c main_arg2) (V m c main_arg3) (V m c main_arg4) (V m c main_arg5) (V m c main_arg6) (V m c main_arg7) :=
  (dats m 0 c).arrAt_eq_of_cover 8 (Cert.Spec.whole (V m c main_arg0) (V m c main_arg1) (V m c main_arg2) (V m c main_arg3) (V m c main_arg4) (V m c main_arg5) (V m c main_arg6) (V m c main_arg7)) (fun t _ => flushed_eq m c t) cover

/-- The run, read: the result array at the whole-array function of the arguments, the arguments unchanged. -/
theorem run : θ_run defs (onTc (τ := τ) (main (F := Ideal))) ⟨m, fun _ => 0, ρ⟩ fun r => ∀ c : Dev nD,
      r.2.mem ((c : Thread nD τ).loc main_v0) = Cert.Spec.whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩)
    (Cert.KernelIdeal.Value.run_blocks (F := Ideal) m ρ)

end Cert.KernelIdeal.Final

end
-- ==== Proof.Consts.lean ====
/-
  The float literals the two programs spell, as the extended reals their bit patterns denote, and the one
  arithmetic fact that joins the two programs' scale factors: the reference multiplies the attention context by
  the square root of the literal 1024 (the encoder length), the kernel by the literal 32; over the extended
  reals the square root of 1024 is exactly 32.
-/
import Idealize.ShloMosaic.PureOps.Ideal

noncomputable section

namespace Cert.Consts

open Idealize.ShloMosaic

/-- The pattern of `1024.0` denotes the real number 1024. -/
theorem ofBits_1024 : Ideal.ofBits .f32 0x44800000#32 = ((1024 : ℝ) : EReal) := by
  simp [Ideal.ofBits, Ideal.ieee, -EReal.coe_mul]; norm_num

/-- The pattern of `32.0` denotes the real number 32. -/
theorem ofBits_32 : Ideal.ofBits .f32 0x42000000#32 = ((32 : ℝ) : EReal) := by
  simp [Ideal.ofBits, Ideal.ieee, -EReal.coe_mul]; norm_num

/-- The pattern of negative infinity denotes the bottom of the extended reals. -/
theorem ofBits_neg_inf : Ideal.ofBits .f32 0xFF800000#32 = (⊥ : EReal) := by
  simp [Ideal.ofBits, Ideal.ieee]

/-- The real square root of 1024 is 32, since 32 · 32 = 1024 and 32 is nonnegative. -/
theorem real_sqrt_1024 : Real.sqrt 1024 = 32 := by
  rw [show (1024 : ℝ) = 32 * 32 by norm_num]
  exact Real.sqrt_mul_self (by norm_num)

/-- The reference's scale factor is the kernel's: the square root of the literal 1024 is the literal 32. -/
theorem sqrt_1024 : Ideal.sqrt (Ideal.ofBits .f32 0x44800000#32) = Ideal.ofBits .f32 0x42000000#32 := by
  rw [ofBits_1024, ofBits_32, Ideal.sqrt_coe, if_neg (by norm_num), real_sqrt_1024]

end Cert.Consts

end
-- ==== Proof.RefRow.lean ====
/-
  The reference program, read one output element at a time.

  The reference computes, for every batch b and query row s, the row of 1024 outputs that the specification
  Cert.Spec.rowOut describes: an input projection, the decoder state, the scores against the 1024 encoder
  positions, a softmax over them, the attention context, the residual mix and the output projection. Each lemma
  below reads one intermediate array of the reference at an index (b, s, ·) and identifies it with the matching
  function of the specification applied to the rows (b, s, ·) of the per-row inputs and the slabs (b, ·, ·) of the
  per-batch inputs. Contractions are sums over the contracted coordinate, broadcasts read their operand at the
  surviving coordinates, and the maximum over the last axis is a fold of max over that axis's coordinates.
-/
import proofs.«101158_j14431090114891_2_alg».proof.Proof.Gen.ReferenceIdeal.Read
import proofs.«101158_j14431090114891_2_alg».proof.Proof.Spec
import proofs.«101158_j14431090114891_2_alg».proof.Proof.Consts
import Idealize.ShloMosaic.Lib.ValueIdx
import Idealize.ShloMosaic.PureOps.Ideal.Laws
import Idealize.ShloMosaic.PureOps.Reduce

noncomputable section

namespace Cert.RefRow

open Idealize.ShloMosaic Idealize.ShloMosaic.ValueIdx Cert.ReferenceIdeal Cert.ReferenceIdeal.Gen Cert.ReferenceIdeal.Read

/-- A rank-3 index with the given coordinates is `ix3` of them. -/
theorem idx3_eq {n0 n1 n2 : Nat} (i : (⟨3, ![n0, n1, n2]⟩ : Shape).Idx) (a : Fin n0) (b : Fin n1) (c : Fin n2)
    (h0 : i 0 = a) (h1 : i 1 = b) (h2 : i 2 = c) : i = ix3 a b c := by
  funext d; match d with | ⟨0, _⟩ => exact h0 | ⟨1, _⟩ => exact h1 | ⟨2, _⟩ => exact h2

/-- A rank-2 index with the given coordinates is `ix2` of them. -/
theorem idx2_eq {n0 n1 : Nat} (i : (⟨2, ![n0, n1]⟩ : Shape).Idx) (a : Fin n0) (b : Fin n1)
    (h0 : i 0 = a) (h1 : i 1 = b) : i = ix2 a b := by
  funext d; match d with | ⟨0, _⟩ => exact h0 | ⟨1, _⟩ => exact h1

/-- A rank-1 index with the given coordinate is `ix1` of it. -/
theorem idx1_eq {n0 : Nat} (i : (⟨1, ![n0]⟩ : Shape).Idx) (a : Fin n0) (h0 : i 0 = a) : i = ix1 a := by
  funext d; match d with | ⟨0, _⟩ => exact h0

variable (x0 : (⟨S32x1024x1024, .f32⟩ : BufTy).Contents (Elt Ideal))
  (x1 x2 x3 : (⟨S32x1024x512, .f32⟩ : BufTy).Contents (Elt Ideal))
  (x4 : (⟨S1024x512, .f32⟩ : BufTy).Contents (Elt Ideal))
  (x5 : (⟨S512, .f32⟩ : BufTy).Contents (Elt Ideal))
  (b : Fin 32) (s : Fin 1024)

/-- The input projection: the contraction of the decoder row with the input weights, plus the bias. -/
theorem v3_at (e : Fin 512) :
    val_main_v3 (F := Ideal) x0 x4 x5 (ix3 b s e)
      = Cert.Spec.proj (fun k => x0 (ix3 b s k)) (fun k e => x4 (ix2 k e)) (fun e => x5 (ix1 e)) e := by
  rw [val_main_v3_apply, val_main_v0_apply, val_main_v2_apply, val_main_v1_apply]
  unfold Cert.Spec.proj
  have e5 : idx_main_v1 (idx_main_v2 (ix3 b s e)) = ix1 e := idx1_eq _ _ rfl
  rw [e5]
  refine congrArg (· + x5 (ix1 e)) (Finset.sum_congr rfl fun k _ => ?_)
  have el : lidx_main_v0 (ix3 b s e) k = ix3 b s k := idx3_eq _ _ _ _ rfl rfl rfl
  have er : ridx_main_v0 (ix3 b s e) k = ix2 k e := idx2_eq _ _ _ rfl rfl
  rw [el, er]

/-- The decoder state: the projection plus the target embedding, times the literal √½. -/
theorem v6_at (e : Fin 512) :
    val_main_v6 (F := Ideal) x0 x1 x4 x5 (ix3 b s e)
      = Cert.Spec.query (fun k => x0 (ix3 b s k)) (fun e => x1 (ix3 b s e)) (fun k e => x4 (ix2 k e))
          (fun e => x5 (ix1 e)) e := by
  rw [val_main_v6_apply, val_main_v4_apply, v3_at, val_main_v5_apply, val_main_cst_apply]
  rfl

/-- The score against encoder position `t`: the contraction of the decoder state with the encoder row. -/
theorem v7_at (t : Fin 1024) :
    val_main_v7 (F := Ideal) x0 x1 x2 x4 x5 (ix3 b s t)
      = Cert.Spec.score
          (Cert.Spec.query (fun k => x0 (ix3 b s k)) (fun e => x1 (ix3 b s e)) (fun k e => x4 (ix2 k e))
            (fun e => x5 (ix1 e)))
          (fun t e => x2 (ix3 b t e)) t := by
  rw [val_main_v7_apply]
  unfold Cert.Spec.score
  refine Finset.sum_congr rfl fun k _ => ?_
  have el : lidx_main_v7 (ix3 b s t) k = ix3 b s k := idx3_eq _ _ _ _ rfl rfl rfl
  have er : ridx_main_v7 (ix3 b s t) k = ix3 b t k := idx3_eq _ _ _ _ rfl rfl rfl
  rw [el, er, v6_at]

/-- The maximum over the last axis, read at a row: the fold of the maximum, from the initial value, over the row's
    entries. -/
theorem v8_at :
    val_main_v8 (F := Ideal) x0 x1 x2 x4 x5 (ix2 b s)
      = (Finset.univ : Finset (Fin 1024)).fold max (Ideal.ofBits .f32 0xFF800000#32)
          (fun t => val_main_v7 (F := Ideal) x0 x1 x2 x4 x5 (ix3 b s t)) := by
  unfold val_main_v8
  have hR : S32x1024x1024.Reduces [2] S32x1024 := by decide
  refine (Host.reduce_eq_fold_single (FloatOps.maximumf (F := Ideal) (φ := .f32)) _ _
    reducesTo_S32x1024x1024_S32x1024_d2 hR h_S_ (ix2 b s)).trans ?_
  have hl : ∀ t : Fin 1024, hR.lift (ix2 b s) t = ix3 b s t := fun t => idx3_eq _ _ _ _ rfl rfl rfl
  exact congrArg (fun g => (Finset.univ : Finset (Fin 1024)).fold max (Ideal.ofBits .f32 0xFF800000#32) g)
    (funext fun t => congrArg (val_main_v7 (F := Ideal) x0 x1 x2 x4 x5) (hl t))

/-- The row maximum: the maximum of negative infinity and the fold is the fold. -/
theorem v10_at :
    val_main_v10 (F := Ideal) x0 x1 x2 x4 x5 (ix2 b s)
      = Cert.Spec.rowMax (Cert.Spec.score
          (Cert.Spec.query (fun k => x0 (ix3 b s k)) (fun e => x1 (ix3 b s e)) (fun k e => x4 (ix2 k e))
            (fun e => x5 (ix1 e)))
          (fun t e => x2 (ix3 b t e))) := by
  rw [val_main_v10_apply, val_main_v9_apply, val_main_cst_1_apply, v8_at]
  unfold Cert.Spec.rowMax
  refine (max_eq_right ?_).trans ?_
  · rw [Ideal.ofBits_def, Cert.Consts.ofBits_neg_inf]; exact bot_le
  · exact congrArg (fun g => (Finset.univ : Finset (Fin 1024)).fold max (Ideal.ofBits .f32 0xFF800000#32) g)
      (funext fun t => v7_at x0 x1 x2 x4 x5 b s t)

/-- The row maximum broadcast back along the last axis. -/
theorem v12_at (t : Fin 1024) :
    val_main_v12 (F := Ideal) x0 x1 x2 x4 x5 (ix3 b s t)
      = Cert.Spec.rowMax (Cert.Spec.score
          (Cert.Spec.query (fun k => x0 (ix3 b s k)) (fun e => x1 (ix3 b s e)) (fun k e => x4 (ix2 k e))
            (fun e => x5 (ix1 e)))
          (fun t e => x2 (ix3 b t e))) := by
  rw [val_main_v12_apply, val_main_v11_apply]
  have e : idx_main_v11 (idx_main_v12 (ix3 b s t)) = ix2 b s := idx2_eq _ _ _ rfl rfl
  rw [e, v10_at]

/-- The shifted exponential of the score at position `t`. -/
theorem v14_at (t : Fin 1024) :
    val_main_v14 (F := Ideal) x0 x1 x2 x4 x5 (ix3 b s t)
      = Cert.Spec.expShift (Cert.Spec.score
          (Cert.Spec.query (fun k => x0 (ix3 b s k)) (fun e => x1 (ix3 b s e)) (fun k e => x4 (ix2 k e))
            (fun e => x5 (ix1 e)))
          (fun t e => x2 (ix3 b t e))) t := by
  rw [val_main_v14_apply, val_main_v13_apply, v7_at, v12_at]
  rfl

/-- The softmax denominator: the sum of the row's shifted exponentials, from the literal zero. -/
theorem v15_at :
    val_main_v15 (F := Ideal) x0 x1 x2 x4 x5 (ix2 b s)
      = ∑ t' : Fin 1024, Cert.Spec.expShift (Cert.Spec.score
          (Cert.Spec.query (fun k => x0 (ix3 b s k)) (fun e => x1 (ix3 b s e)) (fun k e => x4 (ix2 k e))
            (fun e => x5 (ix1 e)))
          (fun t e => x2 (ix3 b t e))) t' := by
  rw [val_main_v15_apply, val_main_cst_2_apply, Ideal.ofBits_def, Ideal.ofBits_zero_f32, zero_add]
  refine Finset.sum_congr rfl fun k _ => ?_
  have e : idx_main_v15 (ix2 b s) k = ix3 b s k := idx3_eq _ _ _ _ rfl rfl rfl
  rw [e, v14_at]

/-- The softmax weight of position `t`. -/
theorem v18_at (t : Fin 1024) :
    val_main_v18 (F := Ideal) x0 x1 x2 x4 x5 (ix3 b s t)
      = Cert.Spec.weight (Cert.Spec.score
          (Cert.Spec.query (fun k => x0 (ix3 b s k)) (fun e => x1 (ix3 b s e)) (fun k e => x4 (ix2 k e))
            (fun e => x5 (ix1 e)))
          (fun t e => x2 (ix3 b t e))) t := by
  rw [val_main_v18_apply, val_main_v17_apply, val_main_v16_apply, v14_at]
  have e : idx_main_v16 (idx_main_v17 (ix3 b s t)) = ix2 b s := idx2_eq _ _ _ rfl rfl
  rw [e, v15_at]
  rfl

/-- The attention context: the contraction of the weights with the encoder input. -/
theorem v19_at (e : Fin 512) :
    val_main_v19 (F := Ideal) x0 x1 x2 x3 x4 x5 (ix3 b s e)
      = Cert.Spec.context (Cert.Spec.weight (Cert.Spec.score
          (Cert.Spec.query (fun k => x0 (ix3 b s k)) (fun e => x1 (ix3 b s e)) (fun k e => x4 (ix2 k e))
            (fun e => x5 (ix1 e)))
          (fun t e => x2 (ix3 b t e)))) (fun t e => x3 (ix3 b t e)) e := by
  rw [val_main_v19_apply]
  unfold Cert.Spec.context
  refine Finset.sum_congr rfl fun k _ => ?_
  have el : lidx_main_v19 (ix3 b s e) k = ix3 b s k := idx3_eq _ _ _ _ rfl rfl rfl
  have er : ridx_main_v19 (ix3 b s e) k = ix3 b k e := idx3_eq _ _ _ _ rfl rfl rfl
  rw [el, er, v18_at]

/-- The residual sum: the projection plus the context times the square root of the literal 1024, which is the
    literal 32. -/
theorem v23_at (e : Fin 512) :
    val_main_v23 (F := Ideal) x0 x1 x2 x3 x4 x5 (ix3 b s e)
      = Cert.Spec.preMix (fun k => x0 (ix3 b s k)) (fun e => x1 (ix3 b s e)) (fun t e => x2 (ix3 b t e))
          (fun t e => x3 (ix3 b t e)) (fun k e => x4 (ix2 k e)) (fun e => x5 (ix1 e)) e := by
  rw [val_main_v23_apply, v3_at, val_main_v22_apply, v19_at, val_main_v21_apply, val_main_v20_apply,
    val_main_cst_3_apply, Ideal.ofBits_def, Ideal.hostUnary_sqrt_def, Cert.Consts.sqrt_1024]
  rfl

/-- The mixed row: the residual sum times the literal √½. -/
theorem v25_at (e : Fin 512) :
    val_main_v25 (F := Ideal) x0 x1 x2 x3 x4 x5 (ix3 b s e)
      = Cert.Spec.mixed (fun k => x0 (ix3 b s k)) (fun e => x1 (ix3 b s e)) (fun t e => x2 (ix3 b t e))
          (fun t e => x3 (ix3 b t e)) (fun k e => x4 (ix2 k e)) (fun e => x5 (ix1 e)) e := by
  rw [val_main_v25_apply, v23_at, val_main_v24_apply, val_main_cst_4_apply]
  rfl

end Cert.RefRow

namespace Cert.RefRow

open Idealize.ShloMosaic Idealize.ShloMosaic.ValueIdx Cert.ReferenceIdeal in
/-- The reference's output at (b, s, h) is the specification's output row of (b, s) at h: the output projection of
    the mixed row, plus the output bias. -/
theorem ref_at
    (x0 : (⟨S32x1024x1024, .f32⟩ : BufTy).Contents (Elt Ideal))
    (x1 x2 x3 : (⟨S32x1024x512, .f32⟩ : BufTy).Contents (Elt Ideal))
    (x4 : (⟨S1024x512, .f32⟩ : BufTy).Contents (Elt Ideal))
    (x5 : (⟨S512, .f32⟩ : BufTy).Contents (Elt Ideal))
    (x6 : (⟨S512x1024, .f32⟩ : BufTy).Contents (Elt Ideal))
    (x7 : (⟨S1024, .f32⟩ : BufTy).Contents (Elt Ideal))
    (b : Fin 32) (s : Fin 1024) (h : Fin 1024) :
    Cert.ReferenceIdeal.Read.val_main_v29 (F := Ideal) x0 x1 x2 x3 x4 x5 x6 x7 (ix3 b s h)
      = Cert.Spec.rowOut (fun k => x0 (ix3 b s k)) (fun e => x1 (ix3 b s e)) (fun t e => x2 (ix3 b t e))
          (fun t e => x3 (ix3 b t e)) (fun k e => x4 (ix2 k e)) (fun e => x5 (ix1 e)) (fun e k => x6 (ix2 e k))
          (fun k => x7 (ix1 k)) h := by
  open Cert.ReferenceIdeal.Read in
  rw [val_main_v29_apply, val_main_v26_apply, val_main_v28_apply, val_main_v27_apply]
  unfold Cert.Spec.rowOut
  have e7 : Cert.ReferenceIdeal.Read.idx_main_v27 (Cert.ReferenceIdeal.Read.idx_main_v28 (ix3 b s h)) = ix1 h :=
    idx1_eq _ _ rfl
  rw [e7]
  refine congrArg (· + x7 (ix1 h)) (Finset.sum_congr rfl fun k _ => ?_)
  have el : Cert.ReferenceIdeal.Read.lidx_main_v26 (ix3 b s h) k = ix3 b s k := idx3_eq _ _ _ _ rfl rfl rfl
  have er : Cert.ReferenceIdeal.Read.ridx_main_v26 (ix3 b s h) k = ix2 k h := idx2_eq _ _ _ rfl rfl
  rw [el, er, v25_at]

end Cert.RefRow

end
-- ==== Proof.lean ====
/-
  An attention layer against its reference, over the extended reals.

  Both programs compute, for every batch b, query row s and output column h, the same number: project the decoder
  output's row (b, s) through the input layer, add the target embedding's row and scale by √½; score that against
  every encoder position of batch b; take the softmax of the scores (shift by the row maximum, exponentiate, divide
  by the row sum); average the encoder input of batch b with those weights; scale by √1024; add the projected row
  back and scale by √½; project through the output layer. The reference does this on whole arrays. The kernel does
  it on tiles of 256 query rows, at the first tile of a batch copying the batch's encoder arrays and the weights
  into scratch buffers (the encoder output transposed) that the batch's other three tiles reuse. A change of float
  format is the identity on the extended reals, a tile of rows is computed from those rows and the batch's arrays
  alone, and the kernel's literal 32 is the square root of the reference's literal 1024: so the two result arrays
  are one function of the arguments (Cert.Spec.whole), entry by entry. No law used here needs a finite input.
-/
import proofs.«101158_j14431090114891_2_alg».proof.Defs
import proofs.«101158_j14431090114891_2_alg».proof.Proof.Gen.Kernel
import proofs.«101158_j14431090114891_2_alg».proof.Proof.Gen.Kernel.Skeleton
import proofs.«101158_j14431090114891_2_alg».proof.Proof.Gen.Kernel.Launch
import proofs.«101158_j14431090114891_2_alg».proof.Proof.Gen.Kernel.Points
import proofs.«101158_j14431090114891_2_alg».proof.Proof.Gen.Kernel.Frame
import proofs.«101158_j14431090114891_2_alg».proof.Proof.Gen.KernelIdeal
import proofs.«101158_j14431090114891_2_alg».proof.Proof.Gen.KernelIdeal.Skeleton
import proofs.«101158_j14431090114891_2_alg».proof.Proof.Gen.KernelIdeal.Launch
import proofs.«101158_j14431090114891_2_alg».proof.Proof.Gen.KernelIdeal.Points
import proofs.«101158_j14431090114891_2_alg».proof.Proof.Gen.KernelIdeal.Frame
import proofs.«101158_j14431090114891_2_alg».proof.Proof.Gen.ReferenceIdeal
import proofs.«101158_j14431090114891_2_alg».proof.Proof.Gen.KernelIdeal.Value
import proofs.«101158_j14431090114891_2_alg».proof.Proof.Gen.ReferenceIdeal.Run
import proofs.«101158_j14431090114891_2_alg».proof.Proof.Gen.ReferenceIdeal.Read
import proofs.«101158_j14431090114891_2_alg».proof.Proof.Gen.Pre_finite_inputs
import proofs.«101158_j14431090114891_2_alg».proof.Proof.Final
import proofs.«101158_j14431090114891_2_alg».proof.Proof.RefRow
import Idealize.ShloMosaic.Adequacy
import Idealize.ShloMosaic.Init

noncomputable section

namespace Cert.Proof

open Idealize.ShloMosaic Idealize.SL.Sem Idealize.ShloMosaic.ValueIdx

/-- The reference's last stage, as a whole array, is the whole-array function of its arguments: entry (b, s, h) of
    the stage is the specification's output row of (b, s) at h. -/
theorem ref_whole
    (x0 : (⟨Cert.ReferenceIdeal.S32x1024x1024, .f32⟩ : BufTy).Contents (Elt Ideal))
    (x1 x2 x3 : (⟨Cert.ReferenceIdeal.S32x1024x512, .f32⟩ : BufTy).Contents (Elt Ideal))
    (x4 : (⟨Cert.ReferenceIdeal.S1024x512, .f32⟩ : BufTy).Contents (Elt Ideal))
    (x5 : (⟨Cert.ReferenceIdeal.S512, .f32⟩ : BufTy).Contents (Elt Ideal))
    (x6 : (⟨Cert.ReferenceIdeal.S512x1024, .f32⟩ : BufTy).Contents (Elt Ideal))
    (x7 : (⟨Cert.ReferenceIdeal.S1024, .f32⟩ : BufTy).Contents (Elt Ideal)) :
    Cert.ReferenceIdeal.Read.val_main_v29 (F := Ideal) x0 x1 x2 x3 x4 x5 x6 x7 = Cert.Spec.whole x0 x1 x2 x3 x4 x5 x6 x7 :=
  funext fun (i : Cert.ReferenceIdeal.S32x1024x1024.Idx) =>
    (congrArg (Cert.ReferenceIdeal.Read.val_main_v29 (F := Ideal) x0 x1 x2 x3 x4 x5 x6 x7) (eq_ix3 i)).trans
      ((Cert.RefRow.ref_at x0 x1 x2 x3 x4 x5 x6 x7 (i 0) (i 1) (i 2)).trans
        ((Cert.Spec.whole_ix3 x0 x1 x2 x3 x4 x5 x6 x7 (i 0) (i 1) (i 2)).symm.trans
          (congrArg (Cert.Spec.whole x0 x1 x2 x3 x4 x5 x6 x7) (eq_ix3 i)).symm))

/-- The three programs run, fault nothing and leave their arguments as they found them: the two kernels by their
    frame runs, the reference by its run with the result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals the kernel's result array ends at the whole-array function of its arguments, and the
    reference's at its last stage, which is that function of arguments that agree. -/
theorem algebraic : Cert.algebraic_KernelIdeal_ReferenceIdeal := by
  intro m ρ m' ρ' _ hagree
  refine ⟨fun c => Cert.Spec.whole (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, ref_whole, (hagree c).1, (hagree c).2.1, (hagree c).2.2.1,
    (hagree c).2.2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
